-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩

abbrev nBuf : Space → Nat
  | .hbm => 56
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x1, .f32⟩
  | .hbm, ⟨41, _⟩ => ⟨S1x128, .f32⟩
  | .hbm, ⟨42, _⟩ => ⟨S100000x128, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_9 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_call1_cst : Ref sig .tc := ⟨.hbm, 92, rfl⟩
abbrev main_call1_v0 : Ref sig .tc := ⟨.hbm, 93, rfl⟩
abbrev main_v52 : Ref sig .tc := ⟨.hbm, 94, rfl⟩
abbrev main_v53 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The graph-convolution layer with batch normalisation, stated once, index by index, on the extended reals.

  For node features x [N, D], edges (src, dst), weights W [D, D], bias b, scale γ and shift β (N = 100000, D = 128,
  E = 1600000 edges):

    ns = rsqrt (max (out-degree, 1)),   nd = rsqrt (max (in-degree, 1))            (the degrees are scatter-added ones)
    h[i, j]   = Σ_k (x[i, k] · ns[i]) · W[k, j]
    agg       = the rows h[src[e]] scatter-added at dst[e]
    H[i, j]   = agg[i, j] · nd[i] + b[j]
    μ[j]      = (Σ_i H[i, j]) / N
    v[j]      = (Σ_i H[i, j]²) / N − μ[j]²            (the "moments" form)
             or (Σ_i (H[i, j] − μ[j])²) / (N − 0)     (the "centred" form)
    out[i, j] = max (((H[i, j] − μ[j]) · rsqrt (v[j] + ε)) · γ[j] + β[j], 0) + x[i, j]

  The degree / gather / scatter chain is the SAME sequence of host operations in both programs, so it is kept here as the
  array-level terms themselves (`normArr`, `aggArr`), over the dimension records and shape facts as parameters; everything
  else is a formula over explicit coordinates. The two forms of the variance agree when every H[i, j] is finite.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Bridge

open Idealize.ShloMosaic Idealize.ShloMosaic.ValueIdx

abbrev S0 : Shape := ⟨0, ![]⟩
abbrev SN : Shape := ⟨1, ![100000]⟩
abbrev SD : Shape := ⟨1, ![128]⟩
abbrev SE : Shape := ⟨1, ![1600000]⟩
abbrev SE1 : Shape := ⟨2, ![1600000, 1]⟩
abbrev SND : Shape := ⟨2, ![100000, 128]⟩
abbrev SED : Shape := ⟨2, ![1600000, 128]⟩
abbrev SDD : Shape := ⟨2, ![128, 128]⟩

/-- An array over [N, D] from a function of the two coordinates. -/
def arr2 (f : Fin 100000 → Fin 128 → EReal) : SND.Idx → EReal := fun idx => f (idx 0) (idx 1)

theorem arr2_apply (f : Fin 100000 → Fin 128 → EReal) (i : Fin 100000) (j : Fin 128) : arr2 f (ix2 i j) = f i j := rfl

/-! ## The shared host chain, as the array-level terms both programs print -/

/-- The shape facts the chain's broadcasts cite. -/
abbrev PN : Prop := S0.BroadcastsInDim SN (![] : Fin 0 → Fin SN.rank)
abbrev PE : Prop := S0.BroadcastsInDim SE (![] : Fin 0 → Fin SE.rank)
abbrev PE1 : Prop := SE.BroadcastsInDim SE1 (![0] : Fin 1 → Fin SE1.rank)
abbrev PND : Prop := S0.BroadcastsInDim SND (![] : Fin 0 → Fin SND.rank)

/-- rsqrt (max (degree, 1)): ones scatter-added onto zeros at idx, clamped below by one, inverse square root. -/
def normArr (d1 : ScatterDims SN SE1 SE) (pN : PN) (pE : PE) (pE1 : PE1) (idx : IVec SE 32) : FVec Ideal SN .f32 :=
  Host.rsqrt (maximumf
    (Host.scatterAdd d1 (broadcastInDim SN ![] pN (constant S0 .f32 0x00000000#32)) (broadcastInDim SE1 ![0] pE1 idx)
      (broadcastInDim SE ![] pE (constant S0 .f32 0x3F800000#32)))
    (broadcastInDim SN ![] pN (constant S0 .f32 0x3F800000#32)))

/-- A negative index wrapped once by N (numpy's indexing convention). -/
def wrapArr (pE : PE) (src : IVec SE 32) : IVec SE 32 :=
  select (cmpi .slt src (broadcastInDim SE ![] pE (constantI S0 32 0#32)))
    (addi src (broadcastInDim SE ![] pE (constantI S0 32 100000#32))) src

/-- The rows h[src[e]] (wrapped, then clamped by the gather) scatter-added onto zeros at dst[e]. -/
def aggArr (dg : GatherDims SND SE1 SED) (d2 : ScatterDims SND SE1 SED) (pE : PE) (pE1 : PE1) (pND : PND)
    (h : FVec Ideal SND .f32) (src dst : IVec SE 32) : FVec Ideal SND .f32 :=
  Host.scatterAdd d2 (broadcastInDim SND ![] pND (constant S0 .f32 0x00000000#32)) (broadcastInDim SE1 ![0] pE1 dst)
    (Host.gather dg h (broadcastInDim SE1 ![0] pE1 (wrapArr pE src)))

/-! ## The formulas over coordinates -/

/-- h[i, j] = Σ_k (x[i, k] · ns[i]) · W[k, j]. -/
def hMat (x : SND.Idx → EReal) (ns : SN.Idx → EReal) (W : SDD.Idx → EReal) (i : Fin 100000) (j : Fin 128) : EReal :=
  ∑ k : Fin 128, (x (ix2 i k) * ns (ix1 i)) * W (ix2 k j)

/-- H[i, j] = agg[i, j] · nd[i] + b[j]. -/
def hNorm (agg : SND.Idx → EReal) (nd : SN.Idx → EReal) (b : SD.Idx → EReal) (i : Fin 100000) (j : Fin 128) : EReal :=
  agg (ix2 i j) * nd (ix1 i) + b (ix1 j)

/-- The number of nodes, as the f32 literal both programs divide by. -/
def cN : EReal := Ideal.ofBits .f32 0x47C35000#32
/-- The batch-norm epsilon, as the f32 literal both programs add. -/
def cEps : EReal := Ideal.ofBits .f32 0x3727C5AC#32

/-- μ[j] = (Σ_i H[i, j]) / N. -/
def mean (H : Fin 100000 → Fin 128 → EReal) (j : Fin 128) : EReal := Ideal.div (∑ i : Fin 100000, H i j) cN

/-- The variance from the two moments: (Σ_i H[i, j]²) / N − μ[j]². -/
def varMoments (H : Fin 100000 → Fin 128 → EReal) (j : Fin 128) : EReal :=
  Ideal.div (∑ i : Fin 100000, H i j * H i j) cN - mean H j * mean H j

/-- The variance from the centred squares: (Σ_i (H[i, j] − μ[j])²) / (N − 0). -/
def varCentred (H : Fin 100000 → Fin 128 → EReal) (j : Fin 128) : EReal :=
  Ideal.div (∑ i : Fin 100000, (H i j - mean H j) * (H i j - mean H j)) (cN - 0)

/-- out[i, j] = max (((H[i, j] − μ[j]) · rsqrt (v[j] + ε)) · γ[j] + β[j], 0) + x[i, j]. -/
def outAt (H : Fin 100000 → Fin 128 → EReal) (v : Fin 128 → EReal) (x : SND.Idx → EReal) (γ β : SD.Idx → EReal)
    (i : Fin 100000) (j : Fin 128) : EReal :=
  max (((H i j - mean H j) * Ideal.rsqrt (v j + cEps)) * γ (ix1 j) + β (ix1 j)) 0 + x (ix2 i j)

/-! ## The layer, end to end, in its two forms -/

/-- H as a function of the arguments. -/
def layerH (d1 : ScatterDims SN SE1 SE) (dg : GatherDims SND SE1 SED) (d2 : ScatterDims SND SE1 SED)
    (pN : PN) (pE : PE) (pE1 : PE1) (pND : PND)
    (x : SND.Idx → EReal) (src dst : IVec SE 32) (W : SDD.Idx → EReal) (b : SD.Idx → EReal) : Fin 100000 → Fin 128 → EReal :=
  hNorm (aggArr dg d2 pE pE1 pND (arr2 (hMat x (normArr d1 pN pE pE1 src) W)) src dst) (normArr d1 pN pE pE1 dst) b

/-- The layer with the variance from the two moments (the tiled program's form). -/
def layerMoments (d1 : ScatterDims SN SE1 SE) (dg : GatherDims SND SE1 SED) (d2 : ScatterDims SND SE1 SED)
    (pN : PN) (pE : PE) (pE1 : PE1) (pND : PND)
    (x : SND.Idx → EReal) (src dst : IVec SE 32) (W : SDD.Idx → EReal) (b γ β : SD.Idx → EReal) : SND.Idx → EReal :=
  arr2 (outAt (layerH d1 dg d2 pN pE pE1 pND x src dst W b) (varMoments (layerH d1 dg d2 pN pE pE1 pND x src dst W b)) x γ β)

/-- The layer with the variance from the centred squares (the plain program's form). -/
def layerCentred (d1 : ScatterDims SN SE1 SE) (dg : GatherDims SND SE1 SED) (d2 : ScatterDims SND SE1 SED)
    (pN : PN) (pE : PE) (pE1 : PE1) (pND : PND)
    (x : SND.Idx → EReal) (src dst : IVec SE 32) (W : SDD.Idx → EReal) (b γ β : SD.Idx → EReal) : SND.Idx → EReal :=
  arr2 (outAt (layerH d1 dg d2 pN pE pE1 pND x src dst W b) (varCentred (layerH d1 dg d2 pN pE pE1 pND x src dst W b)) x γ β)

end Cert.Bridge

end
-- ==== Proof.Algebra.lean ====
/-
  The algebra of the layer's specification: the node count as a real number, finiteness of the two formulas
  that feed the batch statistics, and the agreement of the two forms of the variance on finite columns.
-/
import proofs.«126196_j55027120996500_1_alg».proof.Proof.Spec

noncomputable section

open scoped BigOperators

namespace Cert.Bridge

open Idealize.ShloMosaic Idealize.ShloMosaic.ValueIdx

/-- The f32 pattern 0x47C35000 has exponent field 143 and fraction field 4411392, so it denotes
    (2^23 + 4411392) · 2^(143 − 127 − 23) = 12800000 / 128 = 100000 exactly. -/
theorem cN_eq : cN = ((100000 : ℝ) : EReal) := by
  simp [cN, Ideal.ofBits, Ideal.ieee, -EReal.coe_mul]; norm_num

/-- The embedding of the reals into the extended reals commutes with finite sums. -/
theorem alg_coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- h[i, j] is a finite sum of products of three finite numbers, hence finite. -/
theorem hMat_real (x : SND.Idx → EReal) (ns : SN.Idx → EReal) (W : SDD.Idx → EReal)
    (hx : ∀ i, ∃ y : ℝ, x i = (y : EReal)) (hns : ∀ r, ∃ y : ℝ, ns r = (y : EReal))
    (hW : ∀ i, ∃ y : ℝ, W i = (y : EReal)) (i : Fin 100000) (j : Fin 128) :
    ∃ y : ℝ, hMat x ns W i j = (y : EReal) := by
  choose gx hgx using hx
  choose gn hgn using hns
  choose gW hgW using hW
  refine ⟨∑ k : Fin 128, (gx (ix2 i k) * gn (ix1 i)) * gW (ix2 k j), ?_⟩
  unfold hMat
  rw [alg_coe_finset_sum]
  refine Finset.sum_congr rfl (fun k _ => ?_)
  rw [hgx, hgn, hgW, EReal.coe_mul, EReal.coe_mul]

/-- H[i, j] = agg · nd + b is a product of two finite numbers plus a finite number, hence finite. -/
theorem hNorm_real (agg : SND.Idx → EReal) (nd : SN.Idx → EReal) (b : SD.Idx → EReal)
    (hagg : ∀ i, ∃ y : ℝ, agg i = (y : EReal)) (hnd : ∀ r, ∃ y : ℝ, nd r = (y : EReal))
    (hb : ∀ i, ∃ y : ℝ, b i = (y : EReal)) (i : Fin 100000) (j : Fin 128) :
    ∃ y : ℝ, hNorm agg nd b i j = (y : EReal) := by
  obtain ⟨a, ha⟩ := hagg (ix2 i j)
  obtain ⟨n, hn⟩ := hnd (ix1 i)
  obtain ⟨c, hc⟩ := hb (ix1 j)
  refine ⟨a * n + c, ?_⟩
  unfold hNorm
  rw [ha, hn, hc, EReal.coe_add, EReal.coe_mul]

/-- The real identity behind the two forms of the variance: with μ = (Σ g) / n,
    (Σ (g − μ)²) / n = (Σ g²) / n − μ², because Σ (g − μ)² = Σ g² − 2 μ Σ g + n μ² and Σ g = n μ. -/
theorem alg_real_var_identity (g : Fin 100000 → ℝ) :
    (∑ i, (g i - (∑ i, g i) * (1 / 100000)) * (g i - (∑ i, g i) * (1 / 100000))) * (1 / 100000)
      = (∑ i, g i * g i) * (1 / 100000) - ((∑ i, g i) * (1 / 100000)) * ((∑ i, g i) * (1 / 100000)) := by
  set S : ℝ := ∑ i, g i with hS
  set μ : ℝ := S * (1 / 100000) with hμ
  have hexp : ∀ i, (g i - μ) * (g i - μ) = g i * g i - 2 * μ * g i + μ * μ := fun i => by ring
  have hsum : ∑ i, (g i - μ) * (g i - μ) = (∑ i, g i * g i) - 2 * μ * S + 100000 * (μ * μ) := by
    rw [Finset.sum_congr rfl (fun i _ => hexp i), Finset.sum_add_distrib, Finset.sum_sub_distrib,
      ← Finset.mul_sum, Finset.sum_const, Finset.card_univ, Fintype.card_fin, nsmul_eq_mul, ← hS]
    norm_num
  rw [hsum, hμ]
  ring

/-- On a column of finite numbers the centred form of the variance equals the moments form: every sum and
    quotient involved is a real number, N − 0 = N, and the real identity above applies. -/
theorem varCentred_eq_varMoments (H : Fin 100000 → Fin 128 → EReal) (j : Fin 128)
    (hH : ∀ i, ∃ y : ℝ, H i j = (y : EReal)) : varCentred H j = varMoments H j := by
  choose g hg using hH
  have hn : (100000 : ℝ) ≠ 0 := by norm_num
  -- the mean is the real number (Σ g) · (1 / N)
  have hmean : mean H j = (((∑ i, g i) * (1 / 100000) : ℝ) : EReal) := by
    unfold mean
    rw [cN_eq, Ideal.div_coe hn, Finset.sum_congr rfl (fun i _ => hg i), ← alg_coe_finset_sum, ← EReal.coe_mul]
  -- the centred form, as a real number
  have hc : varCentred H j
      = (((∑ i, (g i - (∑ i, g i) * (1 / 100000)) * (g i - (∑ i, g i) * (1 / 100000))) * (1 / 100000) : ℝ) : EReal) := by
    unfold varCentred
    rw [hmean, sub_zero, cN_eq, Ideal.div_coe hn,
      Finset.sum_congr rfl (fun i _ => by rw [hg i, ← EReal.coe_sub, ← EReal.coe_mul]),
      ← alg_coe_finset_sum, ← EReal.coe_mul]
  -- the moments form, as a real number
  have hm : varMoments H j
      = (((∑ i, g i * g i) * (1 / 100000) - ((∑ i, g i) * (1 / 100000)) * ((∑ i, g i) * (1 / 100000)) : ℝ) : EReal) := by
    unfold varMoments
    rw [hmean, cN_eq, Ideal.div_coe hn,
      Finset.sum_congr rfl (fun i _ => by rw [hg i, ← EReal.coe_mul]),
      ← alg_coe_finset_sum, ← EReal.coe_mul, ← EReal.coe_mul, ← EReal.coe_sub]
  rw [hc, hm, alg_real_var_identity]

/-- The two forms of the layer differ only in the variance, and every entry of H is finite (a finite
    scatter-sum of finite rows of h, times a finite normaliser, plus a finite bias), so they agree. -/
theorem layerCentred_eq_layerMoments (d1 : ScatterDims SN SE1 SE) (dg : GatherDims SND SE1 SED)
    (d2 : ScatterDims SND SE1 SED) (pN : PN) (pE : PE) (pE1 : PE1) (pND : PND)
    (x : SND.Idx → EReal) (src dst : IVec SE 32) (W : SDD.Idx → EReal) (b γ β : SD.Idx → EReal)
    (hx : ∀ i, ∃ y : ℝ, x i = (y : EReal)) (hW : ∀ i, ∃ y : ℝ, W i = (y : EReal))
    (hb : ∀ i, ∃ y : ℝ, b i = (y : EReal))
    (hnorm : ∀ (idx : IVec SE 32) (r : SN.Idx), ∃ y : ℝ, 0 ≤ y ∧ normArr d1 pN pE pE1 idx r = (y : EReal))
    (hagg : ∀ (h : FVec Ideal SND .f32), (∀ i, ∃ y : ℝ, h i = (y : EReal)) →
      ∀ i, ∃ y : ℝ, aggArr dg d2 pE pE1 pND h src dst i = (y : EReal)) :
    layerCentred d1 dg d2 pN pE pE1 pND x src dst W b γ β = layerMoments d1 dg d2 pN pE pE1 pND x src dst W b γ β := by
  have hnr : ∀ (idx : IVec SE 32) (r : SN.Idx), ∃ y : ℝ, normArr d1 pN pE pE1 idx r = (y : EReal) :=
    fun idx r => let ⟨y, _, hy⟩ := hnorm idx r; ⟨y, hy⟩
  have hv : varCentred (layerH d1 dg d2 pN pE pE1 pND x src dst W b)
      = varMoments (layerH d1 dg d2 pN pE pE1 pND x src dst W b) := by
    funext j
    refine varCentred_eq_varMoments _ j (fun i => ?_)
    unfold layerH
    refine hNorm_real _ _ _ (hagg _ (fun idx => ?_)) (hnr dst) hb i j
    exact hMat_real x _ W hx (hnr src) hW (idx 0) (idx 1)
  unfold layerCentred layerMoments
  rw [hv]

end Cert.Bridge

end
-- ==== Proof.ChainFinite.lean ====
/-
  The shared degree / gather / scatter chain of the graph-convolution layer produces finite numbers.

  Both facts hold for ANY dimension records: a scatter-add onto an array of zeros is, at every element, zero plus a
  finite sum of update elements, and a gather reads one element of its operand at every result index. So the degree
  (a scatter-add of ones) is a real number, its clamp from below by one is a real number that is at least one, and
  the inverse square root of that is a real number that is not negative; and the aggregated rows (a scatter-add of
  gathered elements of h) are finite sums of elements of h, real as soon as every element of h is.

  The steps are stated first at arbitrary shapes, where each operation is read at one index, and then applied to the
  layer's terms as they stand: the sum over the 1600000 edges is never opened, only bounded by what its terms are.
-/
import proofs.«126196_j55027120996500_1_alg».proof.Proof.Spec

noncomputable section

open scoped BigOperators

namespace Cert.Bridge

open Idealize.ShloMosaic Idealize.ShloMosaic.ValueIdx

/-! ## Finite sums of real numbers -/

/-- A finite sum of extended reals each of which is a real number is a real number: by induction on the index set,
    the empty sum being the real zero and one more term adding one more real. -/
theorem chain_sum_real {ι : Type} (s : Finset ι) (f : ι → EReal) (hf : ∀ j ∈ s, ∃ y : ℝ, f j = (y : EReal)) :
    ∃ y : ℝ, ∑ j ∈ s, f j = (y : EReal) := by
  classical
  induction s using Finset.induction_on with
  | empty => exact ⟨0, by simp⟩
  | insert a s ha ih =>
    obtain ⟨ya, hya⟩ := hf a (Finset.mem_insert_self a s)
    obtain ⟨ys, hys⟩ := ih (fun j hj => hf j (Finset.mem_insert_of_mem hj))
    exact ⟨ya + ys, by rw [Finset.sum_insert ha, hya, hys, EReal.coe_add]⟩

/-- The same with signs: a finite sum of real numbers that are not negative is a real number that is not negative. -/
theorem chain_sum_real_nonneg {ι : Type} (s : Finset ι) (f : ι → EReal)
    (hf : ∀ j ∈ s, ∃ y : ℝ, 0 ≤ y ∧ f j = (y : EReal)) : ∃ y : ℝ, 0 ≤ y ∧ ∑ j ∈ s, f j = (y : EReal) := by
  classical
  induction s using Finset.induction_on with
  | empty => exact ⟨0, le_refl 0, by simp⟩
  | insert a s ha ih =>
    obtain ⟨ya, hya0, hya⟩ := hf a (Finset.mem_insert_self a s)
    obtain ⟨ys, hys0, hys⟩ := ih (fun j hj => hf j (Finset.mem_insert_of_mem hj))
    exact ⟨ya + ys, add_nonneg hya0 hys0, by rw [Finset.sum_insert ha, hya, hys, EReal.coe_add]⟩

/-! ## Each operation of the chain, read at one index, at arbitrary shapes -/

/-- At any shape, the inverse square root of a real number m ≥ 1 is the real number 1 / √m, which is not negative:
    m is neither negative nor zero, so the operation takes its ordinary branch. -/
theorem chain_rsqrt_real {s : Shape} {φ : FTy} (v : FVec Ideal s φ) (i : s.Idx)
    (h : ∃ m : ℝ, 1 ≤ m ∧ v i = (m : EReal)) : ∃ y : ℝ, 0 ≤ y ∧ Host.rsqrt v i = (y : EReal) := by
  obtain ⟨m, hm, hv⟩ := h
  have hpos : 0 < m := lt_of_lt_of_le one_pos hm
  refine ⟨(Real.sqrt m)⁻¹, inv_nonneg.mpr (Real.sqrt_nonneg m), ?_⟩
  show Ideal.rsqrt (v i) = _
  rw [hv, Ideal.rsqrt_coe, if_neg (not_lt.mpr hpos.le), if_neg hpos.ne']

/-- At any shape, the maximum of a real number c and one is the real number max c 1, which is at least one. -/
theorem chain_max_one_real {s : Shape} {φ : FTy} (a b : FVec Ideal s φ) (i : s.Idx)
    (ha : ∃ c : ℝ, a i = (c : EReal)) (hb : b i = 1) : ∃ m : ℝ, 1 ≤ m ∧ maximumf a b i = (m : EReal) := by
  obtain ⟨c, hc⟩ := ha
  refine ⟨max c 1, le_max_right c 1, ?_⟩
  show max (a i) (b i) = _
  rw [hc, hb, ← EReal.coe_one]
  exact (EReal.coe_strictMono.monotone.map_max).symm

/-- At any shapes and for any dimension record, a scatter-add of real updates onto a real operand is real at every
    element: the element plus the finite sum of the updates that land on it. -/
theorem chain_scatterAdd_real {s si su : Shape} {φ : FTy} {w : Nat} (d : ScatterDims s si su) (x : FVec Ideal s φ)
    (idx : IVec si w) (upd : FVec Ideal su φ) (hx : ∀ i, ∃ y : ℝ, x i = (y : EReal))
    (hu : ∀ j, ∃ y : ℝ, upd j = (y : EReal)) (i : s.Idx) : ∃ y : ℝ, Host.scatterAdd d x idx upd i = (y : EReal) := by
  obtain ⟨a, ha⟩ := hx i
  show ∃ y : ℝ, Ideal.hostScatterAdd d x idx upd i = (y : EReal)
  unfold Ideal.hostScatterAdd
  obtain ⟨b, hb⟩ := chain_sum_real (Finset.univ.filter (fun j => d.resultIdx? j idx = some i)) upd (fun j _ => hu j)
  exact ⟨a + b, by rw [ha, hb, EReal.coe_add]⟩

/-- A gather reads one element of its operand at every result index, so a gather of a real array is real. -/
theorem chain_gather_real {s si t : Shape} {w : Nat} (d : GatherDims s si t) (h : s.Idx → EReal) (idx : IVec si w)
    (hh : ∀ i, ∃ y : ℝ, h i = (y : EReal)) (j : t.Idx) : ∃ y : ℝ, Host.gather d h idx j = (y : EReal) :=
  hh (d.operandIdx j idx)

/-- A scalar constant broadcast to any shape reads the constant's value everywhere. -/
theorem chain_bcast_const {T : Shape} (h : S0.BroadcastsInDim T ![]) (bits : BitVec 32) (j : T.Idx) :
    broadcastInDim T ![] h (constant (F := Ideal) S0 .f32 bits) j = Ideal.ofBits .f32 bits := by
  rw [broadcastInDim_scalar_apply]; rfl

/-! ## The chain's two arrays -/

/-- rsqrt (max (degree, 1)) is a real number that is not negative, for any scatter dimension record. The degree at a
    node is zero plus the sum of the ones whose edge lands on it: a real number c. Then m = max c 1 ≥ 1 is positive,
    so the inverse square root takes its ordinary branch, 1 / √m, which is not negative. -/
theorem normArr_real (d1 : ScatterDims SN SE1 SE) (pN : PN) (pE : PE) (pE1 : PE1) (idx : IVec SE 32) (r : SN.Idx) :
    ∃ y : ℝ, 0 ≤ y ∧ normArr d1 pN pE pE1 idx r = (y : EReal) := by
  unfold normArr
  refine chain_rsqrt_real _ r (chain_max_one_real _ _ r
    (chain_scatterAdd_real d1 _ _ _ (fun i => ⟨0, ?_⟩) (fun j => ⟨1, ?_⟩) r) ?_)
  · exact (chain_bcast_const pN _ i).trans (by rw [Ideal.ofBits_zero_f32, EReal.coe_zero])
  · exact (chain_bcast_const pE _ j).trans (by rw [Ideal.ofBits_one_f32, EReal.coe_one])
  · exact (chain_bcast_const pN _ r).trans Ideal.ofBits_one_f32

/-- The aggregated rows are real as soon as every element of h is, for any gather and scatter dimension records:
    each element is zero plus a finite sum of gathered elements, and each gathered element is some element of h. -/
theorem aggArr_real (dg : GatherDims SND SE1 SED) (d2 : ScatterDims SND SE1 SED) (pE : PE) (pE1 : PE1) (pND : PND)
    (h : FVec Ideal SND .f32) (src dst : IVec SE 32) (hh : ∀ i, ∃ y : ℝ, h i = (y : EReal)) (i : SND.Idx) :
    ∃ y : ℝ, aggArr dg d2 pE pE1 pND h src dst i = (y : EReal) := by
  unfold aggArr
  refine chain_scatterAdd_real d2 _ _ _ (fun i' => ⟨0, ?_⟩) (fun j => chain_gather_real dg h _ hh j) i
  exact (chain_bcast_const pND _ i').trans (by rw [Ideal.ofBits_zero_f32, EReal.coe_zero])

end Cert.Bridge

end
-- ==== Proof.PreFinite.lean ====
/-
  The precondition, decoded: every float input of the layer is finite, that is, every element of x, W, b, γ and β is
  a real number (the two index arrays are integers and are not constrained).

  The precondition is printed as a function of the seven arguments returning one truth value: the conjunction, over
  the five float arguments, of all (|v| < +inf), each "all" an and-reduce to a scalar from the constant true. Its
  value being 1 at the scalar's one index unfolds, conjunct by conjunct, to: every compared element is 1; and an
  extended real whose absolute value max v (−v) lies strictly below +inf is neither −inf nor +inf.
-/
import proofs.«126196_j55027120996500_1_alg».proof.Pre_finite_inputs
import proofs.«126196_j55027120996500_1_alg».proof.Proof.Gen.Pre_finite_inputs
import proofs.«126196_j55027120996500_1_alg».proof.Proof.Spec
import Idealize.ShloMosaic.Lib.ReduceAll

noncomputable section

open scoped BigOperators

namespace Cert.Bridge

open Idealize.ShloMosaic Idealize.ShloMosaic.ValueIdx

/-- A scalar constant broadcast to any shape reads the constant's value everywhere. -/
theorem pre_bcast_const {T : Shape} (h : S0.BroadcastsInDim T ![]) (bits : BitVec 32) (j : T.Idx) :
    broadcastInDim T ![] h (constant (F := Ideal) S0 .f32 bits) j = Ideal.ofBits .f32 bits := by
  rw [broadcastInDim_scalar_apply]; rfl

/-- The scalar shape has one index: two indices of it are functions out of the empty type. -/
instance pre_subsingleton_S0 : Subsingleton S0.Idx := ⟨fun a b => funext fun d => d.elim0⟩

/-- The f32 pattern 0x7F800000 is plus infinity. -/
theorem pre_ofBits_inf : Ideal.ofBits .f32 0x7F800000#32 = (⊤ : EReal) := by simp [Ideal.ofBits, Ideal.ieee]

/-- An extended real whose absolute value max x (−x) compares below plus infinity is a real number: at x = ⊥ and at
    x = ⊤ the absolute value is ⊤, which is not below ⊤. -/
theorem pre_real_of_abs_lt_inf (x : EReal)
    (h : Ideal.cmp .olt (max x (-x)) (Ideal.ofBits .f32 0x7F800000#32) = 1#1) : ∃ y : ℝ, x = (y : EReal) := by
  rw [pre_ofBits_inf] at h
  induction x using EReal.rec with
  | bot => simp [Ideal.cmp] at h
  | coe y => exact ⟨y, rfl⟩
  | top => simp [Ideal.cmp] at h

/-- At any shape: if the test all (|v| < +inf), as the precondition prints it (an and-reduce to a scalar, from the
    constant true, of the comparison of |v| with the broadcast infinity), came out true, every element of v is a
    real number. The and-reduce being 1 says every compared element is 1; each is the element fact above. -/
theorem pre_real_of_all {s : Shape} {axes : List (Fin s.rank)} (v : FVec Ideal s .f32)
    (hb : S0.BroadcastsInDim s (![] : Fin 0 → Fin s.rank)) (hr : s.ReducesTo axes S0) (hu : 0 < S0.numel)
    (e : Host.reduce IntOp.andi (cmpf .olt (Host.absf v) (broadcastInDim s ![] hb (constant S0 .f32 0x7F800000#32)))
      (constantI S0 1 1#1) hr hu ix0 = 1#1) (i : s.Idx) : ∃ y : ℝ, v i = (y : EReal) := by
  have hi := Host.reduce_andi_all _ _ hr hu ix0 e i
  refine pre_real_of_abs_lt_inf (v i) ?_
  rw [← pre_bcast_const hb 0x7F800000#32 i]
  exact hi

/-- The precondition says every float input is finite: it is the conjunction, over the five float arguments, of the
    test all (|v| < +inf). Reading the one index of the scalar result, the conjunction being 1 says each of the five
    tests is 1, and each test says every element of its argument is a real number. -/
theorem real_of_pre [Cert.Pre_finite_inputs.Facts] (x : FVec Ideal SND .f32) (src dst : IVec SE 32) (W : FVec Ideal SDD .f32) (b γ β : FVec Ideal SD .f32)
    (h : Cert.Pre_finite_inputs.fn (F := Ideal) x src dst W b γ β = (fun _ => 1#1)) :
    (∀ i, ∃ y : ℝ, x i = (y : EReal)) ∧ (∀ i, ∃ y : ℝ, W i = (y : EReal)) ∧ (∀ i, ∃ y : ℝ, b i = (y : EReal))
      ∧ (∀ i, ∃ y : ℝ, γ i = (y : EReal)) ∧ (∀ i, ∃ y : ℝ, β i = (y : EReal)) := by
  have h0 := congrFun h ix0
  dsimp only [Cert.Pre_finite_inputs.fn, Cert.Pre_finite_inputs.fn_part1] at h0
  obtain ⟨h1, hβ⟩ := IntOp.andi_eq_one.1 h0
  obtain ⟨h2, hγ⟩ := IntOp.andi_eq_one.1 h1
  obtain ⟨h3, hb⟩ := IntOp.andi_eq_one.1 h2
  obtain ⟨hx, hW⟩ := IntOp.andi_eq_one.1 h3
  exact ⟨pre_real_of_all x _ _ _ hx, pre_real_of_all W _ _ _ hW, pre_real_of_all b _ _ _ hb,
    pre_real_of_all γ _ _ _ hγ, pre_real_of_all β _ _ _ hβ⟩

end Cert.Bridge

end
-- ==== Proof.KernelRun.lean ====
/-
  The tiled program's run with its result buffer named: every weakly fair execution of @main terminates, nothing
  faulting, with the result array holding what the last segment boundary's contents hold there — the fold of the three
  host stretches and the three regions' write-backs from the launch memory — and the seven argument arrays as launched.
-/
import proofs.«126196_j55027120996500_1_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run_W6 : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.KV

end
-- ==== Proof.KChain.lean ====
/-
  The buffer contents at the boundaries between the tiled program's host stretches and its three regions.
  A buffer that a stretch does not write keeps its contents across the stretch; a buffer that is no window's array
  of a region keeps its contents across the region; an input window's array is never written back; an output
  window's array ends at the fold of the region's write-backs. A buffer a stretch does write holds the stretch's
  operations applied to the contents at the stretch's entry: the degree normalisers, the gather / scatter
  aggregation, the batch statistics' quotients, the reshaped row vectors.
-/
import proofs.«126196_j55027120996500_1_alg».proof.Proof.Gen.KernelIdeal.Frame
import proofs.«126196_j55027120996500_1_alg».proof.Proof.Spec
import Idealize.ShloMosaic.Lib.StableHlo.Run

set_option maxRecDepth 16384

noncomputable section

namespace Cert.KernelIdeal.KV

open Cert.KernelIdeal Cert.KernelIdeal.Gen Cert.Bridge Idealize.ShloMosaic Idealize.ShloMosaic.ValueIdx
open Idealize.ShloMosaic.TcCoe Idealize.SL.Sem

/-- The program's scatter of ones onto the nodes, its row gather and its row scatter. -/
abbrev kd1 := scatter_S100000_S1600000x1_S1600000_n_0_0_1
abbrev kdg := gather_S100000x128_S1600000x1_S1600000x128_1_0_n_n_0_1_1128
abbrev kd2 := scatter_S100000x128_S1600000x1_S1600000x128_1_0_0_1

/-- The shape facts the host chain's broadcasts and reshapes cite, as the program states them. -/
theorem kpN : PN := Facts₀.bcast_S_S100000
theorem kpE : PE := Facts₀.bcast_S_S1600000
theorem kpE1 : PE1 := Facts₀.bcast_S1600000_S1600000x1_0
theorem kpND : PND := Facts₀.bcast_S_S100000x128
theorem kcastN : S100000.ShapeCasts S100000x1 := Facts₀.shapeCasts_S100000_S100000x1
theorem kcastD : S128.ShapeCasts S1x128 := Facts₀.shapeCasts_S128_S1x128
theorem kbD : S_.BroadcastsInDim S1x128 (![] : Fin 0 → Fin S1x128.rank) := Facts₀.bcast_S_S1x128

/-- A buffer that is the result of no operation of a stretch keeps its contents across the stretch: the
    operations' result references, listed, all differ from it. -/
local macro "stretch_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg) (c : Dev nD)

/-! ## The first stretch: the arguments pass through; the two degree normalisers -/

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  stretch_keeps hostOps0

theorem W1_arg1 : W1 m ρ c (Proc.devRef .tc main_arg1) = m ((c : Thread nD τ).loc main_arg1) := by
  show StableHlo.after hostOps0 (W0 m ρ c) (Proc.devRef .tc main_arg1) = W0 m ρ c (Proc.devRef .tc main_arg1)
  stretch_keeps hostOps0

theorem W1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  stretch_keeps hostOps0

theorem W1_arg3 : W1 m ρ c (Proc.devRef .tc main_arg3) = m ((c : Thread nD τ).loc main_arg3) := by
  show StableHlo.after hostOps0 (W0 m ρ c) (Proc.devRef .tc main_arg3) = W0 m ρ c (Proc.devRef .tc main_arg3)
  stretch_keeps hostOps0

theorem W1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  stretch_keeps hostOps0

theorem W1_arg5 : W1 m ρ c (Proc.devRef .tc main_arg5) = m ((c : Thread nD τ).loc main_arg5) := by
  show StableHlo.after hostOps0 (W0 m ρ c) (Proc.devRef .tc main_arg5) = W0 m ρ c (Proc.devRef .tc main_arg5)
  stretch_keeps hostOps0

theorem W1_arg6 : W1 m ρ c (Proc.devRef .tc main_arg6) = m ((c : Thread nD τ).loc main_arg6) := by
  show StableHlo.after hostOps0 (W0 m ρ c) (Proc.devRef .tc main_arg6) = W0 m ρ c (Proc.devRef .tc main_arg6)
  stretch_keeps hostOps0

/-- The destination-degree normaliser: ones scatter-added at the second index argument, clamped below by one,
    inverse square root. -/
theorem W1_v12 : W1 m ρ c (Proc.devRef .tc main_v12)
    = normArr kd1 kpN kpE kpE1 (m ((c : Thread nD τ).loc main_arg2)) := by
  show StableHlo.after hostOps0 (W0 m ρ c) (Proc.devRef .tc main_v12) = _
  after_results
  rfl

/-- The source-degree normaliser, from the first index argument, as a column. -/
theorem W1_v13 : W1 m ρ c (Proc.devRef .tc main_v13)
    = shapeCast S100000x1 (normArr kd1 kpN kpE kpE1 (m ((c : Thread nD τ).loc main_arg1)))
        kcastN := by
  show StableHlo.after hostOps0 (W0 m ρ c) (Proc.devRef .tc main_v13) = _
  after_results
  rfl

/-! ## Across the first region: its input arrays and every non-window buffer keep their contents -/

theorem W2_arg0 : W2 m ρ c (Proc.devRef .tc main_arg0) = m ((c : Thread nD τ).loc main_arg0) :=
  have h : W2 m ρ c (Proc.devRef .tc main_arg0) = W1 m ρ c (Proc.devRef .tc main_arg0) :=
    (W2_arr m ρ c 0).trans (((dat0 (V1 m ρ) c).arrAt_in 0 rfl _).trans (A_eq0 (V1 m ρ) c 0))
  h.trans (W1_arg0 m ρ c)

theorem W2_arg1 : W2 m ρ c (Proc.devRef .tc main_arg1) = m ((c : Thread nD τ).loc main_arg1) :=
  (W2_of_ne m ρ c main_arg1 (by decide)).trans (W1_arg1 m ρ c)

theorem W2_arg2 : W2 m ρ c (Proc.devRef .tc main_arg2) = m ((c : Thread nD τ).loc main_arg2) :=
  (W2_of_ne m ρ c main_arg2 (by decide)).trans (W1_arg2 m ρ c)

theorem W2_arg3 : W2 m ρ c (Proc.devRef .tc main_arg3) = m ((c : Thread nD τ).loc main_arg3) :=
  have h : W2 m ρ c (Proc.devRef .tc main_arg3) = W1 m ρ c (Proc.devRef .tc main_arg3) :=
    (W2_arr m ρ c 2).trans (((dat0 (V1 m ρ) c).arrAt_in 2 rfl _).trans (A_eq0 (V1 m ρ) c 2))
  h.trans (W1_arg3 m ρ c)

theorem W2_arg4 : W2 m ρ c (Proc.devRef .tc main_arg4) = m ((c : Thread nD τ).loc main_arg4) :=
  (W2_of_ne m ρ c main_arg4 (by decide)).trans (W1_arg4 m ρ c)

theorem W2_arg5 : W2 m ρ c (Proc.devRef .tc main_arg5) = m ((c : Thread nD τ).loc main_arg5) :=
  (W2_of_ne m ρ c main_arg5 (by decide)).trans (W1_arg5 m ρ c)

theorem W2_arg6 : W2 m ρ c (Proc.devRef .tc main_arg6) = m ((c : Thread nD τ).loc main_arg6) :=
  (W2_of_ne m ρ c main_arg6 (by decide)).trans (W1_arg6 m ρ c)

theorem W2_v12 : W2 m ρ c (Proc.devRef .tc main_v12) = normArr kd1 kpN kpE kpE1 (m ((c : Thread nD τ).loc main_arg2)) :=
  (W2_of_ne m ρ c main_v12 (by decide)).trans (W1_v12 m ρ c)

/-- The first region's output array: the fold of its write-backs. -/
theorem W2_v14 : W2 m ρ c (Proc.devRef .tc main_v14) = (dat0 (V1 m ρ) c).arrAt 3 cfg0.N := W2_arr m ρ c 3

/-! ## The second stretch: the aggregation and the reshaped operands of the second region -/

theorem W3_arg0 : W3 m ρ c (Proc.devRef .tc main_arg0) = m ((c : Thread nD τ).loc main_arg0) := by
  have h : W3 m ρ c (Proc.devRef .tc main_arg0) = W2 m ρ c (Proc.devRef .tc main_arg0) := by
    show StableHlo.after hostOps1 (W2 m ρ c) (Proc.devRef .tc main_arg0) = W2 m ρ c (Proc.devRef .tc main_arg0)
    stretch_keeps hostOps1
  exact h.trans (W2_arg0 m ρ c)

theorem W3_arg1 : W3 m ρ c (Proc.devRef .tc main_arg1) = m ((c : Thread nD τ).loc main_arg1) := by
  have h : W3 m ρ c (Proc.devRef .tc main_arg1) = W2 m ρ c (Proc.devRef .tc main_arg1) := by
    show StableHlo.after hostOps1 (W2 m ρ c) (Proc.devRef .tc main_arg1) = W2 m ρ c (Proc.devRef .tc main_arg1)
    stretch_keeps hostOps1
  exact h.trans (W2_arg1 m ρ c)

theorem W3_arg2 : W3 m ρ c (Proc.devRef .tc main_arg2) = m ((c : Thread nD τ).loc main_arg2) := by
  have h : W3 m ρ c (Proc.devRef .tc main_arg2) = W2 m ρ c (Proc.devRef .tc main_arg2) := by
    show StableHlo.after hostOps1 (W2 m ρ c) (Proc.devRef .tc main_arg2) = W2 m ρ c (Proc.devRef .tc main_arg2)
    stretch_keeps hostOps1
  exact h.trans (W2_arg2 m ρ c)

theorem W3_arg3 : W3 m ρ c (Proc.devRef .tc main_arg3) = m ((c : Thread nD τ).loc main_arg3) := by
  have h : W3 m ρ c (Proc.devRef .tc main_arg3) = W2 m ρ c (Proc.devRef .tc main_arg3) := by
    show StableHlo.after hostOps1 (W2 m ρ c) (Proc.devRef .tc main_arg3) = W2 m ρ c (Proc.devRef .tc main_arg3)
    stretch_keeps hostOps1
  exact h.trans (W2_arg3 m ρ c)

theorem W3_arg4 : W3 m ρ c (Proc.devRef .tc main_arg4) = m ((c : Thread nD τ).loc main_arg4) := by
  have h : W3 m ρ c (Proc.devRef .tc main_arg4) = W2 m ρ c (Proc.devRef .tc main_arg4) := by
    show StableHlo.after hostOps1 (W2 m ρ c) (Proc.devRef .tc main_arg4) = W2 m ρ c (Proc.devRef .tc main_arg4)
    stretch_keeps hostOps1
  exact h.trans (W2_arg4 m ρ c)

theorem W3_arg5 : W3 m ρ c (Proc.devRef .tc main_arg5) = m ((c : Thread nD τ).loc main_arg5) := by
  have h : W3 m ρ c (Proc.devRef .tc main_arg5) = W2 m ρ c (Proc.devRef .tc main_arg5) := by
    show StableHlo.after hostOps1 (W2 m ρ c) (Proc.devRef .tc main_arg5) = W2 m ρ c (Proc.devRef .tc main_arg5)
    stretch_keeps hostOps1
  exact h.trans (W2_arg5 m ρ c)

theorem W3_arg6 : W3 m ρ c (Proc.devRef .tc main_arg6) = m ((c : Thread nD τ).loc main_arg6) := by
  have h : W3 m ρ c (Proc.devRef .tc main_arg6) = W2 m ρ c (Proc.devRef .tc main_arg6) := by
    show StableHlo.after hostOps1 (W2 m ρ c) (Proc.devRef .tc main_arg6) = W2 m ρ c (Proc.devRef .tc main_arg6)
    stretch_keeps hostOps1
  exact h.trans (W2_arg6 m ρ c)

/-- The rows of the first region's output, gathered at the wrapped source indices and scatter-added onto zeros at
    the destination indices. -/
theorem W3_v24 : W3 m ρ c (Proc.devRef .tc main_v24)
    = aggArr kdg kd2 kpE kpE1 kpND (W2 m ρ c (Proc.devRef .tc main_v14)) (m ((c : Thread nD τ).loc main_arg1)) (m ((c : Thread nD τ).loc main_arg2)) := by
  show StableHlo.after hostOps1 (W2 m ρ c) (Proc.devRef .tc main_v24) = _
  after_results
  rw [W2_arg1, W2_arg2]
  rfl

/-- The destination-degree normaliser as a column. -/
theorem W3_v25 : W3 m ρ c (Proc.devRef .tc main_v25)
    = shapeCast S100000x1 (normArr kd1 kpN kpE kpE1 (m ((c : Thread nD τ).loc main_arg2))) kcastN := by
  show StableHlo.after hostOps1 (W2 m ρ c) (Proc.devRef .tc main_v25) = _
  after_results
  rw [W2_v12]
  rfl

/-- The bias as a row. -/
theorem W3_v26 : W3 m ρ c (Proc.devRef .tc main_v26) = shapeCast S1x128 (m ((c : Thread nD τ).loc main_arg4)) kcastD := by
  show StableHlo.after hostOps1 (W2 m ρ c) (Proc.devRef .tc main_v26) = _
  after_results
  rw [W2_arg4]
  rfl

/-! ## Across the second region: no argument is one of its arrays; its three outputs -/

theorem W4_arg0 : W4 m ρ c (Proc.devRef .tc main_arg0) = m ((c : Thread nD τ).loc main_arg0) :=
  (W4_of_ne m ρ c main_arg0 (by decide)).trans (W3_arg0 m ρ c)

theorem W4_arg1 : W4 m ρ c (Proc.devRef .tc main_arg1) = m ((c : Thread nD τ).loc main_arg1) :=
  (W4_of_ne m ρ c main_arg1 (by decide)).trans (W3_arg1 m ρ c)

theorem W4_arg2 : W4 m ρ c (Proc.devRef .tc main_arg2) = m ((c : Thread nD τ).loc main_arg2) :=
  (W4_of_ne m ρ c main_arg2 (by decide)).trans (W3_arg2 m ρ c)

theorem W4_arg3 : W4 m ρ c (Proc.devRef .tc main_arg3) = m ((c : Thread nD τ).loc main_arg3) :=
  (W4_of_ne m ρ c main_arg3 (by decide)).trans (W3_arg3 m ρ c)

theorem W4_arg4 : W4 m ρ c (Proc.devRef .tc main_arg4) = m ((c : Thread nD τ).loc main_arg4) :=
  (W4_of_ne m ρ c main_arg4 (by decide)).trans (W3_arg4 m ρ c)

theorem W4_arg5 : W4 m ρ c (Proc.devRef .tc main_arg5) = m ((c : Thread nD τ).loc main_arg5) :=
  (W4_of_ne m ρ c main_arg5 (by decide)).trans (W3_arg5 m ρ c)

theorem W4_arg6 : W4 m ρ c (Proc.devRef .tc main_arg6) = m ((c : Thread nD τ).loc main_arg6) :=
  (W4_of_ne m ρ c main_arg6 (by decide)).trans (W3_arg6 m ρ c)

theorem W4_v27_0 : W4 m ρ c (Proc.devRef .tc main_v27_0) = (dat1 (V3 m ρ) c).arrAt 3 cfg1.N := W4_arr m ρ c 3
theorem W4_v27_1 : W4 m ρ c (Proc.devRef .tc main_v27_1) = (dat1 (V3 m ρ) c).arrAt 4 cfg1.N := W4_arr m ρ c 4
theorem W4_v27_2 : W4 m ρ c (Proc.devRef .tc main_v27_2) = (dat1 (V3 m ρ) c).arrAt 5 cfg1.N := W4_arr m ρ c 5

/-! ## The third stretch: the mean, the variance from the two moments, the reshaped scale and shift -/

/-- The column sums divided by the node count. -/
theorem W5_v29 : W5 m ρ c (Proc.devRef .tc main_v29)
    = Host.divf (F := Ideal) (W4 m ρ c (Proc.devRef .tc main_v27_1) : S1x128.Idx → EReal)
        (broadcastInDim S1x128 ![] kbD (constant (F := Ideal) S_ .f32 0x47C35000#32)) := by
  show StableHlo.after hostOps2 (W4 m ρ c) (Proc.devRef .tc main_v29) = _
  after_results

/-- The column sums of squares divided by the node count, minus the square of the mean. -/
theorem W5_v33 : W5 m ρ c (Proc.devRef .tc main_v33)
    = subf (F := Ideal) (Host.divf (F := Ideal) (W4 m ρ c (Proc.devRef .tc main_v27_2) : S1x128.Idx → EReal)
          (broadcastInDim S1x128 ![] kbD (constant (F := Ideal) S_ .f32 0x47C35000#32)))
        (mulf (F := Ideal) (W5 m ρ c (Proc.devRef .tc main_v29) : S1x128.Idx → EReal) (W5 m ρ c (Proc.devRef .tc main_v29))) := by
  rw [W5_v29]
  show StableHlo.after hostOps2 (W4 m ρ c) (Proc.devRef .tc main_v33) = _
  after_results

/-- The scale and the shift as rows. -/
theorem W5_v34 : W5 m ρ c (Proc.devRef .tc main_v34) = shapeCast S1x128 (m ((c : Thread nD τ).loc main_arg5)) kcastD := by
  show StableHlo.after hostOps2 (W4 m ρ c) (Proc.devRef .tc main_v34) = _
  after_results
  rw [W4_arg5]
  rfl
theorem W5_v35 : W5 m ρ c (Proc.devRef .tc main_v35) = shapeCast S1x128 (m ((c : Thread nD τ).loc main_arg6)) kcastD := by
  show StableHlo.after hostOps2 (W4 m ρ c) (Proc.devRef .tc main_v35) = _
  after_results
  rw [W4_arg6]
  rfl

/-- The stretch writes neither the second region's first output nor the node features. -/
theorem W5_v27_0 : W5 m ρ c (Proc.devRef .tc main_v27_0) = W4 m ρ c (Proc.devRef .tc main_v27_0) := by
  show StableHlo.after hostOps2 (W4 m ρ c) (Proc.devRef .tc main_v27_0) = W4 m ρ c (Proc.devRef .tc main_v27_0)
  stretch_keeps hostOps2
theorem W5_arg0 : W5 m ρ c (Proc.devRef .tc main_arg0) = m ((c : Thread nD τ).loc main_arg0) := by
  have h : W5 m ρ c (Proc.devRef .tc main_arg0) = W4 m ρ c (Proc.devRef .tc main_arg0) := by
    show StableHlo.after hostOps2 (W4 m ρ c) (Proc.devRef .tc main_arg0) = W4 m ρ c (Proc.devRef .tc main_arg0)
    stretch_keeps hostOps2
  exact h.trans (W4_arg0 m ρ c)

/-! ## The third region's output array -/

theorem W6_v36 : W6 m ρ c (Proc.devRef .tc main_v36) = (dat2 (V5 m ρ) c).arrAt 6 cfg2.N := W6_arr m ρ c 6

end Cert.KernelIdeal.KV

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.KReg0.lean ====
/-
  The first region: h = (x · ns) W, block by block. Grid point t computes rows 5000 t … 5000 t + 4999 of the product
  from the same rows of x and of the column ns and from the whole of W, and writes them back; the twenty blocks tile
  the array, so the array ends holding, at (i, j), the sum over k of (x[i, k] · ns[i, 0]) · W[k, j].
-/
import proofs.«126196_j55027120996500_1_alg».proof.Proof.Gen.KernelIdeal.Frame
import proofs.«126196_j55027120996500_1_alg».proof.Proof.Spec
import proofs.«126196_j55027120996500_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KV

open Cert.KernelIdeal Cert.KernelIdeal.Gen Cert.Bridge
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- A column [a, 1] broadcast along the second axis to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row p of block t is row 5000 t + p of the array. -/
def row (t : Fin 20) (p : Fin 5000) : Fin 100000 := ⟨t.val * 5000 + p.val, by have := t.isLt; have := p.isLt; omega⟩

/-- The first region's function of its three operand arrays. -/
def stage0Fn (A0 : S100000x128.Idx → EReal) (A1 : S100000x1.Idx → EReal) (A2 : S128x128.Idx → EReal) : S100000x128.Idx → EReal :=
  arr2 fun i j => ∑ k : Fin 128, (A0 (ix2 i k) * A1 (ix2 i (0 : Fin 1))) * A2 (ix2 k j)

/-- The body's stored value at (p, q): the product's sum over the contraction. -/
theorem pay0_apply (x0 : Vec Ideal S5000x128 .f32) (x1 : Vec Ideal S5000x1 .f32) (x2 : Vec Ideal S128x128 .f32)
    (p : Fin 5000) (q : Fin 128) :
    k0_pay1 x0 x1 x2 (ix2 p q) = ∑ k : Fin 128, (x0 (ix2 p k) * x1 (ix2 p (0 : Fin 1))) * x2 (ix2 k q) := by
  unfold k0_pay1
  refine (LibMatmul.matmul_zero_apply (M := 5000) (K := 128) (N := 128) none _ _ p q).trans ?_
  refine Finset.sum_congr rfl fun k _ => ?_
  rw [truncf_apply, truncf_apply, mulf_apply, shapeCast_self, broadcastTo_a1_ab_apply]

/-- The printed index maps over the grid: x, ns and the output move down one block per point; W stays. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt0 (t : Fin cfg0.N) : t.val < 20 := by have h : cfg0.N = 20 := N_0; have := t.isLt; omega

/-- The point as a number below twenty. -/
def pt0 (t : Fin cfg0.N) : Fin 20 := ⟨t.val, t_lt0 t⟩

/-- x's block at point t, at (p, k), is x at (5000 t + p, k). -/
theorem blk0_0 (c : Dev nD) (t : Fin cfg0.N) (p : Fin 5000) (k : Fin 128) :
    iblk0 V c 0 t (ix2 p k) = V c main_arg0 (ix2 (row (pt0 t) p) k) := by
  obtain ⟨e0, e1, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- ns's block at point t, at (p, 0), is ns at (5000 t + p, 0). -/
theorem blk0_1 (c : Dev nD) (t : Fin cfg0.N) (p : Fin 5000) :
    iblk0 V c 1 t (ix2 p (0 : Fin 1)) = V c main_v13 (ix2 (row (pt0 t) p) (0 : Fin 1)) := by
  obtain ⟨-, -, e0, e1, -⟩ := idx0 t
  unfold iblk0
  rw [View.read_apply]
  show V c main_v13 _ = V c main_v13 _
  refine congrArg (V c main_v13) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 1 + 1 * 0 = 0; rw [e1]

/-- W's block at every point is W. -/
theorem blk0_2 (c : Dev nD) (t : Fin cfg0.N) (k : Fin 128) (q : Fin 128) :
    iblk0 V c 2 t (ix2 k q) = V c main_arg3 (ix2 k q) := by
  obtain ⟨-, -, -, -, e0, e1, -⟩ := idx0 t
  unfold iblk0
  rw [View.read_apply]
  show V c main_arg3 _ = V c main_arg3 _
  refine congrArg (V c main_arg3) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The output's block at point t sits at rows 5000 t …. -/
theorem emb0_3 (t : Fin cfg0.N) (p : Fin 5000) (q : Fin 128) :
    ((cfg0.win 3).blk t).view.emb (ix2 p q) = (ix2 (row (pt0 t) p) q : S100000x128.Idx) := by
  obtain ⟨-, -, -, -, -, -, e0, e1⟩ := idx0 t
  refine funext fun a => Fin.ext ?_
  match a with
  | ⟨0, _⟩ => show win0_3.index t (0 : Fin 2) * 5000 + 1 * p.val = t.val * 5000 + p.val; rw [e0]; omega
  | ⟨1, _⟩ => show win0_3.index t (1 : Fin 2) * 128 + 1 * q.val = q.val; rw [e1]; omega

/-- What point t writes back is block t of the product. -/
theorem flushed0_3 (c : Dev nD) (t : Fin cfg0.N) :
    (dat0 V c).flushed 3 t
      = ((cfg0.win 3).blk t).view.read (Elt Ideal) (stage0Fn (V c main_arg0) (V c main_v13) (V c main_arg3)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S5000x1) hz0, View.ld_unit_zero (S := S128x128) hz0]
  funext j
  obtain ⟨p, q, rfl⟩ : ∃ (p : Fin 5000) (q : Fin 128), j = ix2 p q := ⟨j 0, j 1, eq_ix2 j⟩
  rw [View.read_apply, emb0_3]
  refine (pay0_apply (iblk0 V c 0 t) (iblk0 V c 1 t) (iblk0 V c 2 t) p q).trans ?_
  unfold stage0Fn
  rw [arr2_apply]
  refine Finset.sum_congr rfl fun k _ => ?_
  rw [blk0_0, blk0_1, blk0_2]

/-- An index of the array is in point t's block iff its row is in the block's range. -/
theorem mem_blk0_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Every index is in the block of the point its row falls in. -/
theorem cover0_3' (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk0_3]
  obtain ⟨-, -, -, -, -, -, e0, e1⟩ := idx0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; dsimp only; omega
  | ⟨1, _⟩ =>
    show win0_3.index _ (1 : Fin 2) * 128 ≤ (i 1).val ∧ (i 1).val < win0_3.index _ (1 : Fin 2) * 128 + 128
    rw [e1]; omega

/-- THE ARRAY after the first region: the product. -/
theorem final0 (c : Dev nD) :
    (dat0 V c).arrAt 3 cfg0.N = stage0Fn (V c main_arg0) (V c main_v13) (V c main_arg3) :=
  (dat0 V c).arrAt_eq_of_cover 3 _ (fun t _ => flushed0_3 V c t) cover0_3'

end Cert.KernelIdeal.KV

end
-- ==== Proof.KReg1Pieces.lean ====
/-
  The second region's body, case by case. At every grid point the body stores three things: the block
  H = agg · nd + b of the normalised features; the running column sums plus this block's column sums; the running
  column sums of squares plus this block's. At the first point the two running totals are first reset to zero.
  What each case leaves in the three output buffers is therefore the same three functions of the input blocks, the
  running totals being the previous point's (later points) or the zero rows (first point).
-/
import proofs.«126196_j55027120996500_1_alg».proof.Proof.Gen.KernelIdeal.Frame
import Idealize.ShloMosaic.Lib.Pipeline.Value
import Idealize.ShloMosaic.Lib.Tactic

set_option maxRecDepth 16384

noncomputable section

namespace Cert.KernelIdeal.KV

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz1 : (![0, 0] : Fin 2 → Nat) = fun _ => 0 := funext fun a => by fin_cases a <;> rfl

/-- Later points, the block H. -/
theorem out1_B_3_eq (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S5000x1 .f32) (x2 : Vec F S1x128 .f32) (xo4 xo5 : Vec F S1x128 .f32) :
    out1_B_3 c i a1 h1 a2 h2 a3 h3 a4 h4 a5 h5 a6 h6 hc x0 x1 x2 xo4 xo5 = k1_pay3 x0 x1 x2 := by
  unfold out1_B_3
  rw [View.read_writes_eq_canon _ _ _ (cover1_B_3 c i a1 h1 a2 h2 a3 h3 a4 h4 a5 h5 a6 h6 hc x0 x1 x2 xo4 xo5)]
  unfold kernelRun1_B
  dsimp only
  rw [View.canon_unit_zero hz1]
  simp only [View.readAt_eq_ld, h1.read_unread, h2.read_unread, h3.read_unread, h5.read_unread, h6.read_unread,
    View.ld_unit_zero (S := S5000x128) hz1, View.ld_unit_zero (S := S5000x1) hz1, View.ld_unit_zero (S := S1x128) hz1]

/-- Later points, the running column sums: the previous total plus this block's column sums. -/
theorem out1_B_4_eq (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S5000x1 .f32) (x2 : Vec F S1x128 .f32) (xo4 xo5 : Vec F S1x128 .f32) :
    out1_B_4 c i a1 h1 a2 h2 a3 h3 a4 h4 a5 h5 a6 h6 hc x0 x1 x2 xo4 xo5 = k1_pay4 x0 x1 x2 xo4 := by
  unfold out1_B_4
  rw [View.read_writes_eq_canon _ _ _ (cover1_B_4 c i a1 h1 a2 h2 a3 h3 a4 h4 a5 h5 a6 h6 hc x0 x1 x2 xo4 xo5)]
  unfold kernelRun1_B
  dsimp only
  rw [View.canon_unit_zero hz1]
  simp only [View.readAt_eq_ld, h1.read_unread, h2.read_unread, h3.read_unread, h5.read_unread, h6.read_unread,
    View.ld_unit_zero (S := S5000x128) hz1, View.ld_unit_zero (S := S5000x1) hz1, View.ld_unit_zero (S := S1x128) hz1]

/-- Later points, the running column sums of squares: the previous total plus this block's. -/
theorem out1_B_5_eq (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S5000x1 .f32) (x2 : Vec F S1x128 .f32) (xo4 xo5 : Vec F S1x128 .f32) :
    out1_B_5 c i a1 h1 a2 h2 a3 h3 a4 h4 a5 h5 a6 h6 hc x0 x1 x2 xo4 xo5 = k1_pay5 x0 x1 x2 xo5 := by
  unfold out1_B_5
  rw [View.read_writes_eq_canon _ _ _ (cover1_B_5 c i a1 h1 a2 h2 a3 h3 a4 h4 a5 h5 a6 h6 hc x0 x1 x2 xo4 xo5)]
  unfold kernelRun1_B
  dsimp only
  rw [View.canon_unit_zero hz1]
  simp only [View.readAt_eq_ld, h1.read_unread, h2.read_unread, h3.read_unread, h5.read_unread, h6.read_unread,
    View.ld_unit_zero (S := S5000x128) hz1, View.ld_unit_zero (S := S5000x1) hz1, View.ld_unit_zero (S := S1x128) hz1]

/-- The first point, the block H. -/
theorem out1_A_3_eq (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S5000x1 .f32) (x2 : Vec F S1x128 .f32) :
    out1_A_3 c i a1 h1 a2 h2 a3 h3 a4 h4 a5 h5 a6 h6 hc x0 x1 x2 = k1_pay3 x0 x1 x2 := by
  unfold out1_A_3
  rw [View.read_writes_eq_canon _ _ _ (cover1_A_3 c i a1 h1 a2 h2 a3 h3 a4 h4 a5 h5 a6 h6 hc x0 x1 x2)]
  unfold kernelRun1_A
  dsimp only
  sl_unfold_words
  rw [View.canon_unit_zero hz1]
  simp only [View.readAt_eq_ld, h1.read_unread, h2.read_unread, h3.read_unread,
    View.ld_unit_zero (S := S5000x128) hz1, View.ld_unit_zero (S := S5000x1) hz1, View.ld_unit_zero (S := S1x128) hz1]

/-- The first point, the column sums: the zero row plus this block's column sums (the body stores the zero row, reads it back, adds). -/
theorem out1_A_4_eq (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S5000x1 .f32) (x2 : Vec F S1x128 .f32) :
    out1_A_4 c i a1 h1 a2 h2 a3 h3 a4 h4 a5 h5 a6 h6 hc x0 x1 x2 = k1_pay4 x0 x1 x2 (k1_pay1 (F := F)) := by
  unfold out1_A_4
  rw [View.read_writes_eq_canon _ _ _ (cover1_A_4 c i a1 h1 a2 h2 a3 h3 a4 h4 a5 h5 a6 h6 hc x0 x1 x2)]
  unfold kernelRun1_A
  dsimp only
  sl_unfold_words
  rw [View.canon_cons_unit_zero (S := S1x128) hz1, View.readCov_unit_zero (S := S1x128) _ hz1]
  simp only [View.readAt_eq_ld, h1.read_unread, h2.read_unread, h3.read_unread,
    View.ld_unit_zero (S := S5000x128) hz1, View.ld_unit_zero (S := S5000x1) hz1, View.ld_unit_zero (S := S1x128) hz1]

/-- The first point, the column sums of squares: the zero row plus this block's. -/
theorem out1_A_5_eq (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S5000x1 .f32) (x2 : Vec F S1x128 .f32) :
    out1_A_5 c i a1 h1 a2 h2 a3 h3 a4 h4 a5 h5 a6 h6 hc x0 x1 x2 = k1_pay5 x0 x1 x2 (k1_pay2 (F := F)) := by
  unfold out1_A_5
  rw [View.read_writes_eq_canon _ _ _ (cover1_A_5 c i a1 h1 a2 h2 a3 h3 a4 h4 a5 h5 a6 h6 hc x0 x1 x2)]
  unfold kernelRun1_A
  dsimp only
  sl_unfold_words
  rw [View.canon_cons_unit_zero (S := S1x128) hz1, View.readCov_unit_zero (S := S1x128) _ hz1]
  simp only [View.readAt_eq_ld, h1.read_unread, h2.read_unread, h3.read_unread,
    View.ld_unit_zero (S := S5000x128) hz1, View.ld_unit_zero (S := S5000x1) hz1, View.ld_unit_zero (S := S1x128) hz1]

end Cert.KernelIdeal.KV

end
-- ==== Proof.BlockSums.lean ====
/-
  Summing a column of 100000 entries block by block: 20 blocks of 5000 rows, each block's sum added to a
  running total that starts at zero. The extended reals are an additive commutative monoid, so the regrouping
  needs no finiteness.
-/
import proofs.«126196_j55027120996500_1_alg».proof.Proof.Spec

noncomputable section

open scoped BigOperators

namespace Cert.Bridge

/-- The row with block number t and offset r inside the block is row t · 5000 + r; this is a bijection between
    the pairs (t, r) and the 100000 rows, so the double sum over blocks and offsets is the sum over all rows. -/
theorem sum_blocks (f : Fin 100000 → EReal) :
    ∑ t : Fin 20, ∑ r : Fin 5000, f ⟨t.val * 5000 + r.val, by omega⟩ = ∑ i : Fin 100000, f i := by
  -- the pairing (t, r) ↦ r + 5000 · t, onto Fin (20 * 5000) = Fin 100000
  let e : Fin 20 × Fin 5000 ≃ Fin 100000 := finProdFinEquiv
  rw [← Fintype.sum_prod_type' (f := fun (t : Fin 20) (r : Fin 5000) => f ⟨t.val * 5000 + r.val, by omega⟩)]
  refine Fintype.sum_equiv e _ _ (fun p => ?_)
  obtain ⟨t, r⟩ := p
  refine congrArg f (Fin.ext ?_)
  show t.val * 5000 + r.val = r.val + 5000 * t.val
  ring

/-- The running total after the blocks before n (n ≤ 20), from zero. -/
def accBlocks (g : Fin 20 → EReal) : (n : ℕ) → n ≤ 20 → EReal
  | 0, _ => 0
  | n+1, h => accBlocks g n (by omega) + g ⟨n, by omega⟩

/-- After n blocks the running total is the sum of the first n block sums (induction on n: the step adds the
    n-th block's sum, which is the last term of the sum over Fin (n + 1)). -/
theorem accBlocks_eq_sum_lt (g : Fin 20 → EReal) :
    ∀ (n : ℕ) (h : n ≤ 20), accBlocks g n h = ∑ t : Fin n, g ⟨t.val, lt_of_lt_of_le t.isLt h⟩
  | 0, _ => by simp [accBlocks]
  | n+1, h => by
    rw [accBlocks, accBlocks_eq_sum_lt g n (by omega), Fin.sum_univ_castSucc]
    rfl

/-- After all 20 blocks the running total is the sum of the 20 block sums. -/
theorem accBlocks_eq_sum (g : Fin 20 → EReal) : accBlocks g 20 le_rfl = ∑ t : Fin 20, g t :=
  accBlocks_eq_sum_lt g 20 le_rfl

end Cert.Bridge

end
-- ==== Proof.KReg1.lean ====
/-
  The second region: H = agg · nd + b block by block, and the column sums of H and of H² accumulated over the twenty
  blocks. Point t stores block t of H (rows 5000 t …), and adds the block's column sums (of H, of H²) to two running rows
  that start at zero and are written back once, after the last point. So the H array ends at
  H[i, j] = agg[i, j] · nd[i, 0] + b[0, j], and the two rows at Σ_i H[i, j] and Σ_i H[i, j]² — the sum over the array's rows
  regrouped as the sum over blocks of the sums within a block.
-/
import proofs.«126196_j55027120996500_1_alg».proof.Proof.Gen.KernelIdeal.Frame
import proofs.«126196_j55027120996500_1_alg».proof.Proof.Spec
import proofs.«126196_j55027120996500_1_alg».proof.Proof.KReg0
import proofs.«126196_j55027120996500_1_alg».proof.Proof.KReg1Pieces
import proofs.«126196_j55027120996500_1_alg».proof.Proof.BlockSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KV

open Cert.KernelIdeal Cert.KernelIdeal.Gen Cert.Bridge
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's three stored values at an index -/

/-- The block of H at (p, q). -/
theorem pay3_apply (x0 : Vec Ideal S5000x128 .f32) (x1 : Vec Ideal S5000x1 .f32) (x2 : Vec Ideal S1x128 .f32)
    (p : Fin 5000) (q : Fin 128) :
    k1_pay3 x0 x1 x2 (ix2 p q) = x0 (ix2 p q) * x1 (ix2 p (0 : Fin 1)) + x2 (ix2 (0 : Fin 1) q) := by
  unfold k1_pay3
  rw [addf_apply, mulf_apply, shapeCast_self, shapeCast_self, shapeCast_self, broadcastTo_a1_ab_apply, broadcastTo_1b_ab_apply]

/-- Inserting row p into the column index q gives (p, q). -/
theorem lift_col (h : S5000x128.Reduces [0] S128) (q : Fin 128) (p : Fin 5000) : h.lift (ix1 q) p = ix2 p q := by
  funext a
  refine Fin.ext ?_
  match a with
  | ⟨0, _⟩ => rfl
  | ⟨1, _⟩ => rfl

/-- A row vector [128] recast to [1, 128], at (0, q), is the vector at q. -/
theorem cast_row (v : FVec Ideal S128 .f32) (h : S128.ShapeCasts S1x128) (q : Fin 128) :
    shapeCast S1x128 v h (ix2 (0 : Fin 1) q) = v (ix1 q) := by
  refine (shapeCast_addUnit_apply ![128] v h (ix2 (0 : Fin 1) q)).trans ?_
  refine congrArg v (funext fun a => ?_)
  match a with
  | ⟨0, _⟩ => rfl

/-- The running column sum after a point: the total before it plus the block's column sum. -/
theorem pay4_apply (x0 : Vec Ideal S5000x128 .f32) (x1 : Vec Ideal S5000x1 .f32) (x2 : Vec Ideal S1x128 .f32)
    (acc : Vec Ideal S1x128 .f32) (q : Fin 128) :
    k1_pay4 x0 x1 x2 acc (ix2 (0 : Fin 1) q) = acc (ix2 (0 : Fin 1) q) + ∑ p : Fin 5000, k1_pay3 x0 x1 x2 (ix2 p q) := by
  unfold k1_pay4
  rw [addf_apply, shapeCast_self, cast_row]
  refine congrArg (acc (ix2 (0 : Fin 1) q) + ·) ?_
  refine (Ideal.multiReduction_add_single _ _ reduces_S5000x128_S128 _ _ _).trans ?_
  exact Finset.sum_congr rfl fun p _ => congrArg (k1_pay3 x0 x1 x2) (lift_col _ q p)

/-- The running column sum of squares after a point: the total before it plus the block's. -/
theorem pay5_apply (x0 : Vec Ideal S5000x128 .f32) (x1 : Vec Ideal S5000x1 .f32) (x2 : Vec Ideal S1x128 .f32)
    (acc : Vec Ideal S1x128 .f32) (q : Fin 128) :
    k1_pay5 x0 x1 x2 acc (ix2 (0 : Fin 1) q)
      = acc (ix2 (0 : Fin 1) q) + ∑ p : Fin 5000, k1_pay3 x0 x1 x2 (ix2 p q) * k1_pay3 x0 x1 x2 (ix2 p q) := by
  unfold k1_pay5
  rw [addf_apply, shapeCast_self, cast_row]
  refine congrArg (acc (ix2 (0 : Fin 1) q) + ·) ?_
  refine (Ideal.multiReduction_add_single _ _ reduces_S5000x128_S128 _ _ _).trans ?_
  refine Finset.sum_congr rfl fun p _ => ?_
  exact (congrArg (mulf (k1_pay3 x0 x1 x2) (k1_pay3 x0 x1 x2)) (lift_col reduces_S5000x128_S128 q p)).trans rfl

/-- The rows the first point resets the totals to are zero. -/
theorem pay1_apply (j : S1x128.Idx) : k1_pay1 (F := Ideal) j = 0 := by
  unfold k1_pay1
  exact Ideal.ofBits_zero_f32
theorem pay2_apply (j : S1x128.Idx) : k1_pay2 (F := Ideal) j = 0 := by
  unfold k1_pay2
  exact Ideal.ofBits_zero_f32

/-! ## The points -/

theorem t_lt1 (t : Fin cfg1.N) : t.val < 20 := by have h : cfg1.N = 20 := N_1; have := t.isLt; omega
def pt1 (t : Fin cfg1.N) : Fin 20 := ⟨t.val, t_lt1 t⟩
/-- A number below twenty as a point of the second region's grid. -/
def tp1 (t : Fin 20) : Fin cfg1.N := ⟨t.val, by have h : cfg1.N = 20 := N_1; have := t.isLt; omega⟩

/-- The printed index maps over the grid: agg, nd and H move down one block per point; b and the two totals stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- agg's block at point t, at (p, q), is agg at (5000 t + p, q). -/
theorem blk1_0 (c : Dev nD) (t : Fin cfg1.N) (p : Fin 5000) (q : Fin 128) :
    iblk1 V c 0 t (ix2 p q) = V c main_v24 (ix2 (row (pt1 t) p) q) := by
  obtain ⟨e0, e1, -⟩ := idx1 t
  unfold iblk1
  rw [View.read_apply]
  show V c main_v24 _ = V c main_v24 _
  refine congrArg (V c main_v24) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- nd's block at point t, at (p, 0), is nd at (5000 t + p, 0). -/
theorem blk1_1 (c : Dev nD) (t : Fin cfg1.N) (p : Fin 5000) :
    iblk1 V c 1 t (ix2 p (0 : Fin 1)) = V c main_v25 (ix2 (row (pt1 t) p) (0 : Fin 1)) := by
  obtain ⟨-, -, e0, e1, -⟩ := idx1 t
  unfold iblk1
  rw [View.read_apply]
  show V c main_v25 _ = V c main_v25 _
  refine congrArg (V c main_v25) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

/-- b's block at every point is b. -/
theorem blk1_2 (c : Dev nD) (t : Fin cfg1.N) (q : Fin 128) :
    iblk1 V c 2 t (ix2 (0 : Fin 1) q) = V c main_v26 (ix2 (0 : Fin 1) q) := by
  obtain ⟨-, -, -, -, e0, e1, -⟩ := idx1 t
  unfold iblk1
  rw [View.read_apply]
  show V c main_v26 _ = V c main_v26 _
  refine congrArg (V c main_v26) (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

/-- H as a function of the region's three operand arrays. -/
def stage1Fn (A0 : S100000x128.Idx → EReal) (A1 : S100000x1.Idx → EReal) (A2 : S1x128.Idx → EReal)
    (i : Fin 100000) (j : Fin 128) : EReal :=
  A0 (ix2 i j) * A1 (ix2 i (0 : Fin 1)) + A2 (ix2 (0 : Fin 1) j)

/-- Block t of H, as the body computes it from the point's input blocks. -/
def hblk (c : Dev nD) (t : Fin cfg1.N) : Vec Ideal S5000x128 .f32 :=
  k1_pay3 (iblk1 V c 0 t) (iblk1 V c 1 t) (iblk1 V c 2 t)

/-- Block t of H at (p, q) is H at (5000 t + p, q). -/
theorem hblk_apply (c : Dev nD) (t : Fin cfg1.N) (p : Fin 5000) (q : Fin 128) :
    hblk V c t (ix2 p q) = stage1Fn (V c main_v24) (V c main_v25) (V c main_v26) (row (pt1 t) p) q := by
  unfold hblk stage1Fn
  rw [pay3_apply, blk1_0, blk1_1, blk1_2]

end Cert.KernelIdeal.KV

end
-- ==== Proof.KReg1Points.lean ====
/-
  The second region, point by point: what its three output buffers hold after each grid point. The first always holds
  the point's block of H; the second and third hold the column sums (of H, of H²) of the blocks so far — zero plus
  block 0's at the first point, the previous point's total plus this block's at every later one.
-/
import proofs.«126196_j55027120996500_1_alg».proof.Proof.Gen.KernelIdeal.Frame
import proofs.«126196_j55027120996500_1_alg».proof.Proof.Spec
import proofs.«126196_j55027120996500_1_alg».proof.Proof.KReg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KV

open Cert.KernelIdeal Cert.KernelIdeal.Gen Cert.Bridge
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The two cases at a point's own staging buffers, for any input blocks -/

theorem ptA_3 (c : Dev nD) (t : Fin cfg1.N) (h0 : t.val % 20 = 0) (x0 : Vec Ideal S5000x128 .f32) (x1 : Vec Ideal S5000x1 .f32) (x2 : Vec Ideal S1x128 .f32) :
    out1_A_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) x0 x1 x2 = k1_pay3 x0 x1 x2 :=
  out1_A_3_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) x0 x1 x2

theorem ptA_4 (c : Dev nD) (t : Fin cfg1.N) (h0 : t.val % 20 = 0) (x0 : Vec Ideal S5000x128 .f32) (x1 : Vec Ideal S5000x1 .f32) (x2 : Vec Ideal S1x128 .f32) :
    out1_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) x0 x1 x2 = k1_pay4 x0 x1 x2 (k1_pay1 (F := Ideal)) :=
  out1_A_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) x0 x1 x2

theorem ptA_5 (c : Dev nD) (t : Fin cfg1.N) (h0 : t.val % 20 = 0) (x0 : Vec Ideal S5000x128 .f32) (x1 : Vec Ideal S5000x1 .f32) (x2 : Vec Ideal S1x128 .f32) :
    out1_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) x0 x1 x2 = k1_pay5 x0 x1 x2 (k1_pay2 (F := Ideal)) :=
  out1_A_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) x0 x1 x2

theorem ptB_3 (c : Dev nD) (t : Fin cfg1.N) (h0 : ¬t.val % 20 = 0) (x0 : Vec Ideal S5000x128 .f32) (x1 : Vec Ideal S5000x1 .f32) (x2 : Vec Ideal S1x128 .f32) (xo4 xo5 : Vec Ideal S1x128 .f32) :
    out1_B_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) x0 x1 x2 xo4 xo5 = k1_pay3 x0 x1 x2 :=
  out1_B_3_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) x0 x1 x2 xo4 xo5

theorem ptB_4 (c : Dev nD) (t : Fin cfg1.N) (h0 : ¬t.val % 20 = 0) (x0 : Vec Ideal S5000x128 .f32) (x1 : Vec Ideal S5000x1 .f32) (x2 : Vec Ideal S1x128 .f32) (xo4 xo5 : Vec Ideal S1x128 .f32) :
    out1_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) x0 x1 x2 xo4 xo5 = k1_pay4 x0 x1 x2 xo4 :=
  out1_B_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) x0 x1 x2 xo4 xo5

theorem ptB_5 (c : Dev nD) (t : Fin cfg1.N) (h0 : ¬t.val % 20 = 0) (x0 : Vec Ideal S5000x128 .f32) (x1 : Vec Ideal S5000x1 .f32) (x2 : Vec Ideal S1x128 .f32) (xo4 xo5 : Vec Ideal S1x128 .f32) :
    out1_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) x0 x1 x2 xo4 xo5 = k1_pay5 x0 x1 x2 xo5 :=
  out1_B_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) x0 x1 x2 xo4 xo5

/-! ## What the three outputs hold after each point -/

/-- After every point the first output's buffer holds the point's block of H. -/
theorem outs_H (c : Dev nD) (t : Fin cfg1.N) : (outsAt1 V c t.val t.isLt).1 = hblk V c t := by
  by_cases h0 : t.val % 20 = 0
  · rw [outsAt1_A V c t h0]
    dsimp only
    exact ptA_3 c t h0 (iblk1 V c 0 t) (iblk1 V c 1 t) (iblk1 V c 2 t)
  · rw [outsAt1_B V c t h0]
    dsimp only
    exact ptB_3 c t h0 (iblk1 V c 0 t) (iblk1 V c 1 t) (iblk1 V c 2 t) _ _

/-- Block t's column sums of H and of H². -/
def colS (c : Dev nD) (q : Fin 128) (t : Fin 20) : EReal := ∑ p : Fin 5000, hblk V c (tp1 t) (ix2 p q)
def colQ (c : Dev nD) (q : Fin 128) (t : Fin 20) : EReal := ∑ p : Fin 5000, hblk V c (tp1 t) (ix2 p q) * hblk V c (tp1 t) (ix2 p q)

/-- After point n the second output's buffer holds the sum of the column sums of blocks 0 … n. -/
theorem outs_S (c : Dev nD) (q : Fin 128) : ∀ (n : ℕ) (h : n < cfg1.N),
    (outsAt1 V c n h).2.1 (ix2 (0 : Fin 1) q) = accBlocks (colS V c q) (n + 1) (by have hN : cfg1.N = 20 := N_1; omega)
  | 0, h => by
    have e := outsAt1_A V c ⟨0, h⟩ rfl
    rw [show outsAt1 V c 0 h = _ from e]
    dsimp only
    refine (congrFun (ptA_4 c ⟨0, h⟩ rfl (iblk1 V c 0 ⟨0, h⟩) (iblk1 V c 1 ⟨0, h⟩) (iblk1 V c 2 ⟨0, h⟩)) (ix2 (0 : Fin 1) q)).trans ?_
    rw [pay4_apply, pay1_apply]
    rfl
  | n + 1, h => by
    have hN : cfg1.N = 20 := N_1
    have hB : ¬(⟨n + 1, h⟩ : Fin cfg1.N).val % 20 = 0 := by dsimp only; omega
    have e := outsAt1_B V c ⟨n + 1, h⟩ hB
    rw [show outsAt1 V c (n + 1) h = _ from e]
    dsimp only
    refine (congrFun (ptB_4 c ⟨n + 1, h⟩ hB (iblk1 V c 0 ⟨n + 1, h⟩) (iblk1 V c 1 ⟨n + 1, h⟩) (iblk1 V c 2 ⟨n + 1, h⟩) _ _) (ix2 (0 : Fin 1) q)).trans ?_
    rw [pay4_apply]
    show (outsAt1 V c n _).2.1 (ix2 (0 : Fin 1) q) + _ = _
    rw [outs_S c q n]
    rfl

/-- After point n the third output's buffer holds the sum of the column sums of squares of blocks 0 … n. -/
theorem outs_Q (c : Dev nD) (q : Fin 128) : ∀ (n : ℕ) (h : n < cfg1.N),
    (outsAt1 V c n h).2.2 (ix2 (0 : Fin 1) q) = accBlocks (colQ V c q) (n + 1) (by have hN : cfg1.N = 20 := N_1; omega)
  | 0, h => by
    have e := outsAt1_A V c ⟨0, h⟩ rfl
    rw [show outsAt1 V c 0 h = _ from e]
    dsimp only
    refine (congrFun (ptA_5 c ⟨0, h⟩ rfl (iblk1 V c 0 ⟨0, h⟩) (iblk1 V c 1 ⟨0, h⟩) (iblk1 V c 2 ⟨0, h⟩)) (ix2 (0 : Fin 1) q)).trans ?_
    rw [pay5_apply, pay2_apply]
    rfl
  | n + 1, h => by
    have hN : cfg1.N = 20 := N_1
    have hB : ¬(⟨n + 1, h⟩ : Fin cfg1.N).val % 20 = 0 := by dsimp only; omega
    have e := outsAt1_B V c ⟨n + 1, h⟩ hB
    rw [show outsAt1 V c (n + 1) h = _ from e]
    dsimp only
    refine (congrFun (ptB_5 c ⟨n + 1, h⟩ hB (iblk1 V c 0 ⟨n + 1, h⟩) (iblk1 V c 1 ⟨n + 1, h⟩) (iblk1 V c 2 ⟨n + 1, h⟩) _ _) (ix2 (0 : Fin 1) q)).trans ?_
    rw [pay5_apply]
    show (outsAt1 V c n _).2.2 (ix2 (0 : Fin 1) q) + _ = _
    rw [outs_Q c q n]
    rfl

end Cert.KernelIdeal.KV

end
-- ==== Proof.KReg1Final.lean ====
/-
  The second region's three output arrays. The H array: the twenty blocks tile it, block t holding H at rows
  5000 t …. The two rows of totals: written back once, after the last point, when they hold the sum over all twenty
  blocks of the block's column sums — which, regrouping the rows of the array by blocks, is the column sum over the
  whole array, Σ_i H[i, j] and Σ_i H[i, j]².
-/
import proofs.«126196_j55027120996500_1_alg».proof.Proof.Gen.KernelIdeal.Frame
import proofs.«126196_j55027120996500_1_alg».proof.Proof.Spec
import proofs.«126196_j55027120996500_1_alg».proof.Proof.KReg1Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KV

open Cert.KernelIdeal Cert.KernelIdeal.Gen Cert.Bridge
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The H array -/

theorem emb1_3 (t : Fin cfg1.N) (p : Fin 5000) (q : Fin 128) :
    ((cfg1.win 3).blk t).view.emb (ix2 p q) = (ix2 (row (pt1 t) p) q : S100000x128.Idx) := by
  obtain ⟨-, -, -, -, -, -, e0, e1, -⟩ := idx1 t
  refine funext fun a => Fin.ext ?_
  match a with
  | ⟨0, _⟩ => show win1_3.index t (0 : Fin 2) * 5000 + 1 * p.val = t.val * 5000 + p.val; rw [e0]; omega
  | ⟨1, _⟩ => show win1_3.index t (1 : Fin 2) * 128 + 1 * q.val = q.val; rw [e1]; omega

/-- What point t writes back to the H array is block t of H. -/
theorem flushed1_3 (c : Dev nD) (t : Fin cfg1.N) :
    (dat1 V c).flushed 3 t
      = ((cfg1.win 3).blk t).view.read (Elt Ideal) (arr2 (stage1Fn (V c main_v24) (V c main_v25) (V c main_v26))) := by
  show (cfg1.win 3).cut (grid1.coords t) ((dat1 V c).after 3 t) = _
  rw [after1_3, outs_H]
  funext j
  obtain ⟨p, q, rfl⟩ : ∃ (p : Fin 5000) (q : Fin 128), j = ix2 p q := ⟨j 0, j 1, eq_ix2 j⟩
  rw [View.read_apply, emb1_3, arr2_apply]
  exact hblk_apply V c t p q

theorem mem_blk1_3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v27_0).slice (win1_3.rect t)).set ↔ _
  rw [View.set_slice_whole, Rect.mem_set_unit]
  exact Iff.rfl

theorem cover1_3 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk1_3]
  obtain ⟨-, -, -, -, -, -, e0, e1, -⟩ := idx1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]; dsimp only; omega
  | ⟨1, _⟩ =>
    show win1_3.index _ (1 : Fin 2) * 128 ≤ (i 1).val ∧ (i 1).val < win1_3.index _ (1 : Fin 2) * 128 + 128
    rw [e1]; omega

/-- THE H ARRAY after the second region. -/
theorem final1_3 (c : Dev nD) :
    (dat1 V c).arrAt 3 cfg1.N = arr2 (stage1Fn (V c main_v24) (V c main_v25) (V c main_v26)) :=
  (dat1 V c).arrAt_eq_of_cover 3 _ (fun t _ => flushed1_3 V c t) cover1_3

/-! ## The two rows of totals -/

/-- A [1, 128] row from a function of the column. -/
def rowOf (f : Fin 128 → EReal) : S1x128.Idx → EReal := fun idx => f (idx 1)
theorem rowOf_apply (f : Fin 128 → EReal) (q : Fin 128) : rowOf f (ix2 (0 : Fin 1) q) = f q := rfl

/-- Every point's block of the sums row is the row itself. -/
theorem emb1_4 (t : Fin cfg1.N) (q : Fin 128) :
    ((cfg1.win 4).blk t).view.emb (ix2 (0 : Fin 1) q) = (ix2 (0 : Fin 1) q : S1x128.Idx) := by
  have e := idx1 t
  refine funext fun a => Fin.ext ?_
  match a with
  | ⟨0, _⟩ => show win1_4.index t (0 : Fin 2) * 1 + 1 * 0 = 0; rw [e.2.2.2.2.2.2.2.2.1]
  | ⟨1, _⟩ => show win1_4.index t (1 : Fin 2) * 128 + 1 * q.val = q.val; rw [e.2.2.2.2.2.2.2.2.2.1]; omega

theorem mem_blk1_4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v27_1).slice (win1_4.rect t)).set ↔ _
  rw [View.set_slice_whole, Rect.mem_set_unit]
  exact Iff.rfl

/-- Every point's block of the sums of squares row is the row itself. -/
theorem emb1_5 (t : Fin cfg1.N) (q : Fin 128) :
    ((cfg1.win 5).blk t).view.emb (ix2 (0 : Fin 1) q) = (ix2 (0 : Fin 1) q : S1x128.Idx) := by
  have e := idx1 t
  refine funext fun a => Fin.ext ?_
  match a with
  | ⟨0, _⟩ => show win1_5.index t (0 : Fin 2) * 1 + 1 * 0 = 0; rw [e.2.2.2.2.2.2.2.2.2.2.1]
  | ⟨1, _⟩ => show win1_5.index t (1 : Fin 2) * 128 + 1 * q.val = q.val; rw [e.2.2.2.2.2.2.2.2.2.2.2]; omega

theorem mem_blk1_5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v27_2).slice (win1_5.rect t)).set ↔ _
  rw [View.set_slice_whole, Rect.mem_set_unit]
  exact Iff.rfl

/-- The last point (the only one after which the totals are written back). -/
def tLast : Fin cfg1.N := ⟨19, by have hN : cfg1.N = 20 := N_1; omega⟩

theorem acc_last (g : Fin 20 → EReal) (t : Fin cfg1.N) (h19 : t.val = 19) :
    accBlocks g (t.val + 1) (by have := t_lt1 t; omega) = accBlocks g 20 le_rfl := by
  obtain ⟨tv, ht⟩ := t
  dsimp only at h19
  subst h19
  rfl

theorem flushed1_4 (c : Dev nD) (t : Fin cfg1.N) (hf : (cfg1.win 4).flush t = true) :
    (dat1 V c).flushed 4 t
      = ((cfg1.win 4).blk t).view.read (Elt Ideal) (rowOf fun q => accBlocks (colS V c q) 20 le_rfl) := by
  have hN : cfg1.N = 20 := N_1
  have h19 : t.val = 19 := by have := (flush1_4 t).mp hf; have := t.isLt; omega
  show (cfg1.win 4).cut (grid1.coords t) ((dat1 V c).after 4 t) = _
  rw [after1_4]
  funext j
  obtain ⟨z, q, rfl⟩ : ∃ (z : Fin 1) (q : Fin 128), j = ix2 z q := ⟨j 0, j 1, eq_ix2 j⟩
  obtain rfl : z = 0 := Subsingleton.elim _ _
  rw [View.read_apply, emb1_4, rowOf_apply]
  exact (outs_S V c q t.val t.isLt).trans (acc_last _ t h19)

theorem flushed1_5 (c : Dev nD) (t : Fin cfg1.N) (hf : (cfg1.win 5).flush t = true) :
    (dat1 V c).flushed 5 t
      = ((cfg1.win 5).blk t).view.read (Elt Ideal) (rowOf fun q => accBlocks (colQ V c q) 20 le_rfl) := by
  have hN : cfg1.N = 20 := N_1
  have h19 : t.val = 19 := by have := (flush1_5 t).mp hf; have := t.isLt; omega
  show (cfg1.win 5).cut (grid1.coords t) ((dat1 V c).after 5 t) = _
  rw [after1_5]
  funext j
  obtain ⟨z, q, rfl⟩ : ∃ (z : Fin 1) (q : Fin 128), j = ix2 z q := ⟨j 0, j 1, eq_ix2 j⟩
  obtain rfl : z = 0 := Subsingleton.elim _ _
  rw [View.read_apply, emb1_5, rowOf_apply]
  exact (outs_Q V c q t.val t.isLt).trans (acc_last _ t h19)

theorem cover1_4 (i : S1x128.Idx) : ∃ t : Fin cfg1.N, (cfg1.win 4).flush t = true ∧ i ∈ ((cfg1.win 4).blk t).view.set := by
  have hi0 : (i 0).val < 1 := (i 0).isLt
  have hi1 : (i 1).val < 128 := (i 1).isLt
  refine ⟨tLast, (flush1_4 tLast).mpr rfl, ?_⟩
  rw [mem_blk1_4]
  have e := idx1 tLast
  intro a
  match a with
  | ⟨0, _⟩ =>
    show win1_4.index tLast (0 : Fin 2) * 1 ≤ (i 0).val ∧ (i 0).val < win1_4.index tLast (0 : Fin 2) * 1 + 1
    rw [e.2.2.2.2.2.2.2.2.1]; omega
  | ⟨1, _⟩ =>
    show win1_4.index tLast (1 : Fin 2) * 128 ≤ (i 1).val ∧ (i 1).val < win1_4.index tLast (1 : Fin 2) * 128 + 128
    rw [e.2.2.2.2.2.2.2.2.2.1]; omega

theorem cover1_5 (i : S1x128.Idx) : ∃ t : Fin cfg1.N, (cfg1.win 5).flush t = true ∧ i ∈ ((cfg1.win 5).blk t).view.set := by
  have hi0 : (i 0).val < 1 := (i 0).isLt
  have hi1 : (i 1).val < 128 := (i 1).isLt
  refine ⟨tLast, (flush1_5 tLast).mpr rfl, ?_⟩
  rw [mem_blk1_5]
  have e := idx1 tLast
  intro a
  match a with
  | ⟨0, _⟩ =>
    show win1_5.index tLast (0 : Fin 2) * 1 ≤ (i 0).val ∧ (i 0).val < win1_5.index tLast (0 : Fin 2) * 1 + 1
    rw [e.2.2.2.2.2.2.2.2.2.2.1]; omega
  | ⟨1, _⟩ =>
    show win1_5.index tLast (1 : Fin 2) * 128 ≤ (i 1).val ∧ (i 1).val < win1_5.index tLast (1 : Fin 2) * 128 + 128
    rw [e.2.2.2.2.2.2.2.2.2.2.2]; omega

/-- Summing block by block is summing over the array's rows. -/
theorem total_S (c : Dev nD) (q : Fin 128) :
    accBlocks (colS V c q) 20 le_rfl = ∑ i : Fin 100000, stage1Fn (V c main_v24) (V c main_v25) (V c main_v26) i q := by
  rw [accBlocks_eq_sum, ← sum_blocks (fun i => stage1Fn (V c main_v24) (V c main_v25) (V c main_v26) i q)]
  refine Finset.sum_congr rfl fun t _ => Finset.sum_congr rfl fun p _ => ?_
  exact hblk_apply V c (tp1 t) p q

theorem total_Q (c : Dev nD) (q : Fin 128) :
    accBlocks (colQ V c q) 20 le_rfl
      = ∑ i : Fin 100000, stage1Fn (V c main_v24) (V c main_v25) (V c main_v26) i q * stage1Fn (V c main_v24) (V c main_v25) (V c main_v26) i q := by
  rw [accBlocks_eq_sum, ← sum_blocks (fun i => stage1Fn (V c main_v24) (V c main_v25) (V c main_v26) i q * stage1Fn (V c main_v24) (V c main_v25) (V c main_v26) i q)]
  refine Finset.sum_congr rfl fun t _ => Finset.sum_congr rfl fun p _ => ?_
  show hblk V c (tp1 t) (ix2 p q) * hblk V c (tp1 t) (ix2 p q) = _
  rw [hblk_apply V c (tp1 t) p q]
  rfl

/-- THE ROW OF SUMS after the second region: Σ_i H[i, j]. -/
theorem final1_4 (c : Dev nD) :
    (dat1 V c).arrAt 4 cfg1.N
      = rowOf fun q => ∑ i : Fin 100000, stage1Fn (V c main_v24) (V c main_v25) (V c main_v26) i q := by
  rw [(dat1 V c).arrAt_eq_of_cover 4 _ (fun t hf => flushed1_4 V c t hf) cover1_4]
  exact congrArg rowOf (funext fun q => total_S V c q)

/-- THE ROW OF SUMS OF SQUARES after the second region: Σ_i H[i, j]². -/
theorem final1_5 (c : Dev nD) :
    (dat1 V c).arrAt 5 cfg1.N
      = rowOf fun q => ∑ i : Fin 100000, stage1Fn (V c main_v24) (V c main_v25) (V c main_v26) i q * stage1Fn (V c main_v24) (V c main_v25) (V c main_v26) i q := by
  rw [(dat1 V c).arrAt_eq_of_cover 5 _ (fun t hf => flushed1_5 V c t hf) cover1_5]
  exact congrArg rowOf (funext fun q => total_Q V c q)

end Cert.KernelIdeal.KV

end
-- ==== Proof.KReg2.lean ====
/-
  The third tiled region, from blocks to the whole array. The region has 20 grid points; point t computes one
  block of 5000 rows of the output from the same block of two [100000, 128] operands and from four [1, 128] rows
  (each row window's only block is the whole row). The body is pointwise, so every block written back is the
  restriction of ONE function of the six operand arrays, and the 20 blocks tile the output: the output array ends
  holding that function.
-/
import proofs.«126196_j55027120996500_1_alg».proof.Proof.Gen.KernelIdeal.Frame
import proofs.«126196_j55027120996500_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Cert.Bridge Idealize.ShloMosaic Idealize.ShloMosaic.ValueIdx
open Idealize.ShloMosaic.TcCoe Idealize.SL.Sem
open Idealize.ShloMosaic.Pipeline (Dat)

/-- the third region's pointwise function of its six operand arrays -/
def stage2Fn (A0 A1 : S100000x128.Idx → EReal) (A2 A3 A4 A5 : S1x128.Idx → EReal) : S100000x128.Idx → EReal :=
  Cert.Bridge.arr2 fun i j => max (((A0 (ix2 i j) - A2 (ix2 0 j)) * Ideal.rsqrt (A3 (ix2 0 j) + cEps)) * A4 (ix2 0 j) + A5 (ix2 0 j)) 0 + A1 (ix2 i j)

/-- The zero offsets of a whole-buffer access, however spelt. -/
theorem zeroOff : (![0, 0] : Fin 2 → Nat) = fun _ => 0 := funext fun a => by fin_cases a <;> rfl

/-! ## The body's arithmetic at one entry of a block -/

/-- A [1, 128] row broadcast to [5000, 128], read at (p, q), is the row's entry (0, q). -/
theorem bcastRow_apply {α : Type} (x : S1x128.Idx → α) (p : Fin 5000) (q : Fin 128) :
    broadcastTo S5000x128 x broadcasts_S1x128_S5000x128 (ix2 p q) = x (ix2 0 q) :=
  broadcastTo_apply x broadcasts_S1x128_S5000x128 (ix2 p q) (ix2 0 q) (fun a => by
    match a with
    | ⟨0, _⟩ => rfl
    | ⟨1, _⟩ => rfl)

/-- The inverse square root of a vector, read at an index, is the inverse square root of the entry. -/
theorem rsqrtVec_apply {s : Shape} (a : s.Idx → EReal) (i : s.Idx) :
    rsqrt (F := Ideal) (φ := .f32) a i = Ideal.rsqrt (a i) := rfl

/-- The body's result at entry (p, q) of a block, from the blocks it loaded:
    max (((x0 − x2) · rsqrt (x3 + ε)) · x4 + x5, 0) + x1, the four rows read at column q. -/
theorem pay_apply (x0 x1 : S5000x128.Idx → EReal) (x2 x3 x4 x5 : S1x128.Idx → EReal) (p : Fin 5000) (q : Fin 128) :
    k2_pay1 (F := Ideal) x0 x2 x3 x4 x5 x1 (ix2 p q)
      = max (((x0 (ix2 p q) - x2 (ix2 0 q)) * Ideal.rsqrt (x3 (ix2 0 q) + cEps)) * x4 (ix2 0 q) + x5 (ix2 0 q)) 0
          + x1 (ix2 p q) := by
  unfold k2_pay1
  simp only [shapeCast_self]
  rw [addf_apply, maximumf_apply, addf_apply, mulf_apply, mulf_apply, subf_apply, bcastRow_apply, bcastRow_apply,
    bcastRow_apply, bcastRow_apply, rsqrtVec_apply, addf_apply, broadcast_apply, broadcast_apply]
  show max (((x0 (ix2 p q) - x2 (ix2 0 q)) * Ideal.rsqrt (x3 (ix2 0 q) + Ideal.ofBits .f32 0x3727C5AC#32)) * x4 (ix2 0 q)
      + x5 (ix2 0 q)) (Ideal.ofBits .f32 0x00000000#32) + x1 (ix2 p q) = _
  rw [Ideal.ofBits_zero_f32]
  rfl

/-- One entry of a written block against one entry of the whole-array function: if the two big operands' block
    entries are the arrays' entries at i, the four rows are the arrays themselves, and i has the block entry's
    column, then the body's result at the block entry is the function's value at i. -/
theorem point_eq (x0 x1 : S5000x128.Idx → EReal) (x2 x3 x4 x5 : S1x128.Idx → EReal)
    (A0 A1 : S100000x128.Idx → EReal) (A2 A3 A4 A5 : S1x128.Idx → EReal)
    (y : S5000x128.Idx) (i : S100000x128.Idx)
    (h0 : x0 y = A0 i) (h1 : x1 y = A1 i) (h2 : x2 = A2) (h3 : x3 = A3) (h4 : x4 = A4) (h5 : x5 = A5)
    (hcol : (i 1).val = (y 1).val) :
    k2_pay1 (F := Ideal) x0 x2 x3 x4 x5 x1 y = stage2Fn A0 A1 A2 A3 A4 A5 i := by
  subst h2 h3 h4 h5
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hcol
  rw [pay_apply, h0, h1]
  rfl

/-! ## The printed index maps, decided once over the 20 grid points -/

/-- The two big operands and the output are at block (t, 0); the four rows at block (0, 0). -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## Each input block as entries of its array -/

variable (V : (c : Dev nD) → (b : Ref sig .tc) → Buf (Elt Ideal) ((c : Thread nD τ).loc b))

/-- Block t of the first big operand: its entry y is the array's entry (5000 t + y₀, y₁). -/
theorem iblk0_apply (c : Dev nD) (t : Fin cfg2.N) (y : S5000x128.Idx) (k : S100000x128.Idx)
    (hk0 : (k 0).val = t.val * 5000 + (y 0).val) (hk1 : (k 1).val = (y 1).val) :
    (iblk2 V c 0 t : S5000x128.Idx → EReal) y = (V c main_v27_0 : S100000x128.Idx → EReal) k := by
  obtain ⟨e00, e01, -⟩ := idx_facts t
  unfold iblk2
  rw [View.read_apply]
  show V c main_v27_0 _ = V c main_v27_0 _
  congr 1
  funext a
  apply Fin.ext
  match a with
  | ⟨0, _⟩ => show win2_0.index t (0 : Fin 2) * 5000 + 1 * (y 0).val = (k 0).val; omega
  | ⟨1, _⟩ => show win2_0.index t (1 : Fin 2) * 128 + 1 * (y 1).val = (k 1).val; omega

/-- Block t of the second big operand, likewise. -/
theorem iblk1_apply (c : Dev nD) (t : Fin cfg2.N) (y : S5000x128.Idx) (k : S100000x128.Idx)
    (hk0 : (k 0).val = t.val * 5000 + (y 0).val) (hk1 : (k 1).val = (y 1).val) :
    (iblk2 V c 1 t : S5000x128.Idx → EReal) y = (V c main_arg0 : S100000x128.Idx → EReal) k := by
  obtain ⟨-, -, e10, e11, -⟩ := idx_facts t
  unfold iblk2
  rw [View.read_apply]
  show V c main_arg0 _ = V c main_arg0 _
  congr 1
  funext a
  apply Fin.ext
  match a with
  | ⟨0, _⟩ => show win2_1.index t (0 : Fin 2) * 5000 + 1 * (y 0).val = (k 0).val; omega
  | ⟨1, _⟩ => show win2_1.index t (1 : Fin 2) * 128 + 1 * (y 1).val = (k 1).val; omega

/-- A row window's block (0, 0) is the whole [1, 128] array, at every point. -/
theorem iblk2_eq (c : Dev nD) (t : Fin cfg2.N) :
    (iblk2 V c 2 t : S1x128.Idx → EReal) = (V c main_v29 : S1x128.Idx → EReal) := by
  obtain ⟨-, -, -, -, e0, e1, -⟩ := idx_facts t
  funext y
  unfold iblk2
  rw [View.read_apply]
  show V c main_v29 _ = V c main_v29 _
  congr 1
  funext a
  apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem iblk3_eq (c : Dev nD) (t : Fin cfg2.N) :
    (iblk2 V c 3 t : S1x128.Idx → EReal) = (V c main_v33 : S1x128.Idx → EReal) := by
  obtain ⟨-, -, -, -, -, -, e0, e1, -⟩ := idx_facts t
  funext y
  unfold iblk2
  rw [View.read_apply]
  show V c main_v33 _ = V c main_v33 _
  congr 1
  funext a
  apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

theorem iblk4_eq (c : Dev nD) (t : Fin cfg2.N) :
    (iblk2 V c 4 t : S1x128.Idx → EReal) = (V c main_v34 : S1x128.Idx → EReal) := by
  obtain ⟨-, -, -, -, -, -, -, -, e0, e1, -⟩ := idx_facts t
  funext y
  unfold iblk2
  rw [View.read_apply]
  show V c main_v34 _ = V c main_v34 _
  congr 1
  funext a
  apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

theorem iblk5_eq (c : Dev nD) (t : Fin cfg2.N) :
    (iblk2 V c 5 t : S1x128.Idx → EReal) = (V c main_v35 : S1x128.Idx → EReal) := by
  obtain ⟨-, -, -, -, -, -, -, -, -, -, e0, e1, -⟩ := idx_facts t
  funext y
  unfold iblk2
  rw [View.read_apply]
  show V c main_v35 _ = V c main_v35 _
  congr 1
  funext a
  apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-! ## What each point writes back -/

/-- Point t writes back block t of the whole-array function of the six operand arrays as the region finds them:
    the body's one store is the pointwise result of the loaded blocks, entry y of the big operands' block t is
    the arrays' entry at the place the output's block t puts y, and the rows are whole. -/
theorem flushed_eq (c : Dev nD) (t : Fin cfg2.N) :
    (dat2 V c).flushed 6 t = ((cfg2.win 6).blk t).view.read (Elt Ideal)
      (stage2Fn (V c main_v27_0) (V c main_arg0) (V c main_v29) (V c main_v33) (V c main_v34) (V c main_v35)) := by
  show (cfg2.win 6).cut (grid2.coords t) ((dat2 V c).after 6 t) = _
  rw [after2_6]
  unfold out2_6
  rw [View.canon_unit_zero zeroOff]
  simp only [View.ld_unit_zero (S := S5000x128) zeroOff, View.ld_unit_zero (S := S1x128) zeroOff]
  obtain ⟨-, -, -, -, -, -, -, -, -, -, -, -, e60, e61⟩ := idx_facts t
  funext j
  show k2_pay1 (F := Ideal) (iblk2 V c 0 t) (iblk2 V c 2 t) (iblk2 V c 3 t) (iblk2 V c 4 t) (iblk2 V c 5 t) (iblk2 V c 1 t) j
    = stage2Fn (V c main_v27_0) (V c main_arg0) (V c main_v29) (V c main_v33) (V c main_v34) (V c main_v35)
        (((cfg2.win 6).blk t).view.emb j)
  have hk0 : ((((cfg2.win 6).blk t).view.emb j) 0).val = t.val * 5000 + (j 0).val := by
    show win2_6.index t (0 : Fin 2) * 5000 + 1 * (j 0).val = t.val * 5000 + (j 0).val; omega
  have hk1 : ((((cfg2.win 6).blk t).view.emb j) 1).val = (j 1).val := by
    show win2_6.index t (1 : Fin 2) * 128 + 1 * (j 1).val = (j 1).val; omega
  exact point_eq _ _ _ _ _ _ _ _ _ _ _ _ j (((cfg2.win 6).blk t).view.emb j)
    (iblk0_apply V c t j _ hk0 hk1) (iblk1_apply V c t j _ hk0 hk1)
    (iblk2_eq V c t) (iblk3_eq V c t) (iblk4_eq V c t) (iblk5_eq V c t) hk1

/-! ## The blocks tile the output -/

/-- An index of the output is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v36).slice (win2_6.rect t)).set ↔ _
  rw [View.set_slice_whole, Rect.mem_set_unit]
  exact Iff.rfl

/-- Row r of the output is in the block of point r / 5000, and every point writes back. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by show (i 0).val / 5000 < 20; omega⟩, rfl⟩
  obtain ⟨-, -, -, -, -, -, -, -, -, -, -, -, e60, e61⟩ := idx_facts t
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-! ## The output array after the region -/

/-- The output array after the 20 write-backs is the pointwise function of the six operand arrays. -/
theorem final2 (c : Dev nD) :
    (dat2 V c).arrAt 6 cfg2.N
      = stage2Fn (V c main_v27_0) (V c main_arg0) (V c main_v29) (V c main_v33) (V c main_v34) (V c main_v35) :=
  (dat2 V c).arrAt_eq_of_cover 6
    (stage2Fn (V c main_v27_0) (V c main_arg0) (V c main_v29) (V c main_v33) (V c main_v34) (V c main_v35))
    (fun t _ => flushed_eq V c t) cover

end Cert.KernelIdeal.KV

end
-- ==== Proof.KValue.lean ====
/-
  The tiled program's result as a function of its arguments. Reading the buffer contents back from the end: the third
  region's array is the pointwise normalisation of H with the mean and variance rows; those rows are the second
  region's two totals divided by the number of nodes (and the square of the mean subtracted); H is the second region's
  array, agg · nd + b, where agg is the scatter-added gathered rows of h and h is the first region's product of the
  scaled features with the weights. Index by index this is the layer with the variance taken from the two moments.
-/
import proofs.«126196_j55027120996500_1_alg».proof.Proof.KernelRun
import proofs.«126196_j55027120996500_1_alg».proof.Proof.KChain
import proofs.«126196_j55027120996500_1_alg».proof.Proof.KReg0
import proofs.«126196_j55027120996500_1_alg».proof.Proof.KReg1Final
import proofs.«126196_j55027120996500_1_alg».proof.Proof.KReg2
import Idealize.ShloMosaic.Lib.IdealHost

set_option maxRecDepth 16384

noncomputable section

open scoped BigOperators

namespace Cert.KernelIdeal.KV

open Cert.KernelIdeal Cert.KernelIdeal.Gen Cert.Bridge
open Idealize.ShloMosaic Idealize.ShloMosaic.TcCoe Idealize.SL.Sem Idealize.ShloMosaic.ValueIdx

/-- A vector [N] recast as a column [N, 1], at (i, 0), is the vector at i. -/
theorem cast_col {α : Type} (v : S100000.Idx → α) (h : S100000.ShapeCasts S100000x1) (i : Fin 100000) :
    shapeCast S100000x1 v h (ix2 i (0 : Fin 1)) = v (ix1 i) := by
  refine shapeCast_apply v h (ix2 i (0 : Fin 1)) (ix1 i) ?_
  rw [Shape.rowMajor_val_one, Shape.rowMajor_val_two]
  show i.val = i.val * 1 + 0
  omega

variable (m : (ℓ : Loc nD τ sig) → Buf (Elt Ideal) ℓ) (ρ : Dev nD → PrngReg) (c : Dev nD)

/-- H as a function of the program's arguments. -/
def kH : Fin 100000 → Fin 128 → EReal :=
  layerH kd1 kdg kd2 kpN kpE kpE1 kpND (m ((c : Thread nD τ).loc main_arg0)) (m ((c : Thread nD τ).loc main_arg1))
    (m ((c : Thread nD τ).loc main_arg2)) (m ((c : Thread nD τ).loc main_arg3)) (m ((c : Thread nD τ).loc main_arg4))

/-- After the first region: h. -/
theorem val_h : W2 m ρ c (Proc.devRef .tc main_v14)
    = arr2 (hMat (m ((c : Thread nD τ).loc main_arg0)) (normArr kd1 kpN kpE kpE1 (m ((c : Thread nD τ).loc main_arg1)))
        (m ((c : Thread nD τ).loc main_arg3))) := by
  rw [W2_v14, final0 (V1 m ρ) c]
  show stage0Fn (W1 m ρ c (Proc.devRef .tc main_arg0)) (W1 m ρ c (Proc.devRef .tc main_v13)) (W1 m ρ c (Proc.devRef .tc main_arg3)) = _
  rw [W1_arg0, W1_v13, W1_arg3]
  unfold stage0Fn hMat
  refine congrArg arr2 (funext fun i => funext fun j => Finset.sum_congr rfl fun k _ => ?_)
  rw [cast_col]

/-- After the second region: H. -/
theorem val_H : W4 m ρ c (Proc.devRef .tc main_v27_0) = arr2 (kH m c) := by
  rw [W4_v27_0, final1_3 (V3 m ρ) c]
  show arr2 (stage1Fn (W3 m ρ c (Proc.devRef .tc main_v24)) (W3 m ρ c (Proc.devRef .tc main_v25)) (W3 m ρ c (Proc.devRef .tc main_v26))) = _
  rw [W3_v24, W3_v25, W3_v26, val_h]
  unfold kH layerH
  refine congrArg arr2 (funext fun i => funext fun j => ?_)
  unfold stage1Fn hNorm
  rw [cast_col, cast_row]

/-- The same, inside the second region's own arrays. -/
theorem stage1_eq : stage1Fn (V3 m ρ c main_v24) (V3 m ρ c main_v25) (V3 m ρ c main_v26) = kH m c := by
  have h := val_H m ρ c
  rw [W4_v27_0, final1_3 (V3 m ρ) c] at h
  funext i j
  have := congrFun h (ix2 i j)
  rwa [arr2_apply, arr2_apply] at this

/-- The row of column sums of H. -/
theorem val_S : W4 m ρ c (Proc.devRef .tc main_v27_1) = rowOf fun q => ∑ i : Fin 100000, kH m c i q := by
  rw [W4_v27_1, final1_4 (V3 m ρ) c, stage1_eq]

/-- The row of column sums of H². -/
theorem val_Q : W4 m ρ c (Proc.devRef .tc main_v27_2) = rowOf fun q => ∑ i : Fin 100000, kH m c i q * kH m c i q := by
  rw [W4_v27_2, final1_5 (V3 m ρ) c, stage1_eq]

/-- The node count, broadcast over the row, at any column. -/
theorem bc_cN (j : S1x128.Idx) : broadcastInDim S1x128 ![] kbD (constant (F := Ideal) S_ .f32 0x47C35000#32) j = cN :=
  broadcastInDim_scalar_apply kbD _ j

/-- The mean row. -/
theorem val_mean (j : Fin 128) : W5 m ρ c (Proc.devRef .tc main_v29) (ix2 (0 : Fin 1) j) = mean (kH m c) j := by
  rw [W5_v29, hostDivf_apply, val_S, rowOf_apply, bc_cN]
  rfl

/-- The variance row, from the two moments. -/
theorem val_var (j : Fin 128) : W5 m ρ c (Proc.devRef .tc main_v33) (ix2 (0 : Fin 1) j) = varMoments (kH m c) j := by
  rw [W5_v33, subf_apply, mulf_apply, hostDivf_apply, val_Q, rowOf_apply, bc_cN, val_mean]
  rfl

/-- THE RESULT ARRAY: the layer, with the variance from the two moments. -/
theorem value : W6 m ρ c (Proc.devRef .tc main_v36)
    = layerMoments kd1 kdg kd2 kpN kpE kpE1 kpND (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  rw [W6_v36, final2 (V5 m ρ) c]
  show stage2Fn (W5 m ρ c (Proc.devRef .tc main_v27_0)) (W5 m ρ c (Proc.devRef .tc main_arg0)) (W5 m ρ c (Proc.devRef .tc main_v29))
    (W5 m ρ c (Proc.devRef .tc main_v33)) (W5 m ρ c (Proc.devRef .tc main_v34)) (W5 m ρ c (Proc.devRef .tc main_v35)) = _
  unfold stage2Fn layerMoments
  refine congrArg arr2 (funext fun i => funext fun j => ?_)
  rw [val_mean, val_var, W5_v27_0, val_H, arr2_apply, W5_v34, W5_v35, W5_arg0, cast_row, cast_row]
  rfl

/-- THE RUN, READ: every weakly fair execution terminates with the result array at the layer of the arguments, the
    arguments unchanged. -/
theorem run : θ_run (defs (F := Ideal)) (onTc (τ := τ) (main (F := Ideal))) ⟨m, fun _ => 0, ρ⟩ (fun r => ∀ c : Dev nD,
      r.2.mem ((c.tc : Thread nD τ).loc main_v36)
        = layerMoments kd1 kdg kd2 kpN kpE kpE1 kpND (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (value m ρ c), (h c).2⟩) (run_W6 m ρ)

end Cert.KernelIdeal.KV

end
-- ==== Proof.RefRun.lean ====
/-
  The reference program's run.

  @main is a straight line of host operations: its own 64, and at the two calls the callee's operations in the
  callee's order over that call's buffer record — the variance function's 19 followed by the 3 of the select
  function it calls in turn, and the rectifier's 3. Listed in order they are 89 operations; running @main is
  running that list, so every buffer ends at the fold of the operations' results over the launch contents.
-/
import proofs.«126196_j55027120996500_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 89 operations in order, the calls unfolded: statements 1–47 of @main, then the variance function's
    nineteen over the record `main_call0` (its arguments the layer output %32 and the integer constant %c_8) and the
    select function's three over `main_call0.call0` (its arguments the comparison %12, the quotient %11 and the
    not-a-number constant), then @main's statements up to %51, the rectifier's three over `main_call1`, and the
    final addition of the input. -/
abbrev ops : List (HloOp τ sig (Elt F)) :=
  [
    nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0x00000000#32),
    unary main_cst_2 main_v6 (broadcastInDim S100000 ![] bcast_S_S100000 : (⟨S_, .f32⟩ : BufTy).Contents (Elt F) → (⟨S100000, .f32⟩ : BufTy).Contents (Elt F)),
    unary main_arg2 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v0 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v9 (broadcastInDim S100000 ![] bcast_S_S100000 : (⟨S_, .f32⟩ : BufTy).Contents (Elt F) → (⟨S100000, .f32⟩ : BufTy).Contents (Elt F)),
    binary main_v8 main_v9 main_v10 (maximumf : (⟨S100000, .f32⟩ : BufTy).Contents (Elt F) → (⟨S100000, .f32⟩ : BufTy).Contents (Elt F) → (⟨S100000, .f32⟩ : BufTy).Contents (Elt F)),
    unary main_v5 main_v11 (Host.rsqrt : (⟨S100000, .f32⟩ : BufTy).Contents (Elt F) → (⟨S100000, .f32⟩ : BufTy).Contents (Elt F)),
    unary main_v10 main_v12 (Host.rsqrt : (⟨S100000, .f32⟩ : BufTy).Contents (Elt F) → (⟨S100000, .f32⟩ : BufTy).Contents (Elt F)),
    unary main_v11 main_v13 (broadcastInDim S100000x1 ![0] bcast_S100000_S100000x1_0 : (⟨S100000, .f32⟩ : BufTy).Contents (Elt F) → (⟨S100000x1, .f32⟩ : BufTy).Contents (Elt F)),
    unary main_v13 main_v14 (broadcastInDim S100000x128 ![0, 1] bcast_S100000x1_S100000x128_0_1 : (⟨S100000x1, .f32⟩ : BufTy).Contents (Elt F) → (⟨S100000x128, .f32⟩ : BufTy).Contents (Elt F)),
    binary main_arg0 main_v14 main_v15 (mulf : (⟨S100000x128, .f32⟩ : BufTy).Contents (Elt F) → (⟨S100000x128, .f32⟩ : BufTy).Contents (Elt F) → (⟨S100000x128, .f32⟩ : BufTy).Contents (Elt F)),
    binary main_v15 main_arg3 main_v16 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v17 (broadcastInDim S1600000 ![] bcast_S_S1600000 : (⟨S_, .i32⟩ : BufTy).Contents (Elt F) → (⟨S1600000, .i32⟩ : BufTy).Contents (Elt F)),
    binary main_arg1 main_v17 main_v18 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v19 (broadcastInDim S1600000 ![] bcast_S_S1600000 : (⟨S_, .i32⟩ : BufTy).Contents (Elt F) → (⟨S1600000, .i32⟩ : BufTy).Contents (Elt F)),
    binary main_arg1 main_v19 main_v20 (addi : (⟨S1600000, .i32⟩ : BufTy).Contents (Elt F) → (⟨S1600000, .i32⟩ : BufTy).Contents (Elt F) → (⟨S1600000, .i32⟩ : BufTy).Contents (Elt F)),
    ternary main_v18 main_v20 main_arg1 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v21 main_v22 (broadcastInDim S1600000x1 ![0] bcast_S1600000_S1600000x1_0 : (⟨S1600000, .i32⟩ : BufTy).Contents (Elt F) → (⟨S1600000x1, .i32⟩ : BufTy).Contents (Elt F)),
    binary main_v16 main_v22 main_v23 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_5 (constant S_ .f32 0x00000000#32),
    unary main_cst_5 main_v24 (broadcastInDim S100000x128 ![] bcast_S_S100000x128 : (⟨S_, .f32⟩ : BufTy).Contents (Elt F) → (⟨S100000x128, .f32⟩ : BufTy).Contents (Elt F)),
    unary main_arg2 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v23 main_v26 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v27 (broadcastInDim S100000x1 ![0] bcast_S100000_S100000x1_0 : (⟨S100000, .f32⟩ : BufTy).Contents (Elt F) → (⟨S100000x1, .f32⟩ : BufTy).Contents (Elt F)),
    unary main_v27 main_v28 (broadcastInDim S100000x128 ![0, 1] bcast_S100000x1_S100000x128_0_1 : (⟨S100000x1, .f32⟩ : BufTy).Contents (Elt F) → (⟨S100000x128, .f32⟩ : BufTy).Contents (Elt F)),
    binary main_v26 main_v28 main_v29 (mulf : (⟨S100000x128, .f32⟩ : BufTy).Contents (Elt F) → (⟨S100000x128, .f32⟩ : BufTy).Contents (Elt F) → (⟨S100000x128, .f32⟩ : BufTy).Contents (Elt F)),
    unary main_arg4 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v32 main_cst_6 main_v33 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_7 (constant S_ .f32 0x47C35000#32),
    unary main_cst_7 main_v34 (broadcastInDim S128 ![] bcast_S_S128 : (⟨S_, .f32⟩ : BufTy).Contents (Elt F) → (⟨S128, .f32⟩ : BufTy).Contents (Elt F)),
    binary main_v33 main_v34 main_v35 (Host.divf : (⟨S128, .f32⟩ : BufTy).Contents (Elt F) → (⟨S128, .f32⟩ : BufTy).Contents (Elt F) → (⟨S128, .f32⟩ : BufTy).Contents (Elt F)),
    nullary main_c_8 (constantI S_ 32 0#32),
    TRef.nullary main_call0.cst (constant S_ .f32 0x00000000#32),
    TRef.binary (.of main_v32) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v32) main_call0.v4 main_call0.v5 subf,
    TRef.binary main_call0.v5 main_call0.v5 main_call0.v6 mulf,
    TRef.unary (.of main_c_8) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v35 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v32 main_v38 main_v39 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3727C5AC#32),
    unary main_cst_9 main_v40 (broadcastInDim S128 ![] bcast_S_S128 : (⟨S_, .f32⟩ : BufTy).Contents (Elt F) → (⟨S128, .f32⟩ : BufTy).Contents (Elt F)),
    binary main_v36 main_v40 main_v41 (addf : (⟨S128, .f32⟩ : BufTy).Contents (Elt F) → (⟨S128, .f32⟩ : BufTy).Contents (Elt F) → (⟨S128, .f32⟩ : BufTy).Contents (Elt F)),
    unary main_v41 main_v42 (Host.rsqrt : (⟨S128, .f32⟩ : BufTy).Contents (Elt F) → (⟨S128, .f32⟩ : BufTy).Contents (Elt F)),
    unary main_v42 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v39 main_v44 main_v45 (mulf : (⟨S100000x128, .f32⟩ : BufTy).Contents (Elt F) → (⟨S100000x128, .f32⟩ : BufTy).Contents (Elt F) → (⟨S100000x128, .f32⟩ : BufTy).Contents (Elt F)),
    unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (mulf : (⟨S100000x128, .f32⟩ : BufTy).Contents (Elt F) → (⟨S100000x128, .f32⟩ : BufTy).Contents (Elt F) → (⟨S100000x128, .f32⟩ : BufTy).Contents (Elt F)),
    unary main_arg6 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v51) main_call1.v0 main_call1.v1 maximumf,
    binary main_v52 main_arg0 main_v53 (addf : (⟨S100000x128, .f32⟩ : BufTy).Contents (Elt F) → (⟨S100000x128, .f32⟩ : BufTy).Contents (Elt F) → (⟨S100000x128, .f32⟩ : BufTy).Contents (Elt F)) ]

-- the two windows, the three functions' bodies and the records' fields unfolded, both sides are one chain of
-- steps once sequencing is reassociated
set_option maxRecDepth 8192 in
set_option maxHeartbeats 4000000 in
/-- @main is that straight line. -/
theorem main_eq (c : Dev nD) : main (F := F) c = seq ops := by
  simp only [main, main_part0, main_part1, fn_var.body, fn_where.body, fn_relu.body, seq, bind_assoc, pure_bind]

/-- The signature scopes no buffer. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., unary_bufs_sub .., unary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefSplit.lean ====
/-
  The reference's line of operations cut in two after the layer's pre-normalisation output (%32 of @main): the first
  part computes that output from the arguments, the second reads it four times (the column mean, twice inside the
  variance function, and the centring) and never looks behind it, so the second part can be folded over ANY contents
  that hold the output.
-/
import proofs.«126196_j55027120996500_1_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first 41 operations: the degrees, their inverse square roots, the product with the weights, the gather and
    scatter along the edges, the scaling by the in-degree factor and the bias — up to and including %32. -/
abbrev opsA : List (HloOp τ sig (Elt F)) :=
  [
    nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0x00000000#32),
    unary main_cst_2 main_v6 (broadcastInDim S100000 ![] bcast_S_S100000 : (⟨S_, .f32⟩ : BufTy).Contents (Elt F) → (⟨S100000, .f32⟩ : BufTy).Contents (Elt F)),
    unary main_arg2 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v0 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v9 (broadcastInDim S100000 ![] bcast_S_S100000 : (⟨S_, .f32⟩ : BufTy).Contents (Elt F) → (⟨S100000, .f32⟩ : BufTy).Contents (Elt F)),
    binary main_v8 main_v9 main_v10 (maximumf : (⟨S100000, .f32⟩ : BufTy).Contents (Elt F) → (⟨S100000, .f32⟩ : BufTy).Contents (Elt F) → (⟨S100000, .f32⟩ : BufTy).Contents (Elt F)),
    unary main_v5 main_v11 (Host.rsqrt : (⟨S100000, .f32⟩ : BufTy).Contents (Elt F) → (⟨S100000, .f32⟩ : BufTy).Contents (Elt F)),
    unary main_v10 main_v12 (Host.rsqrt : (⟨S100000, .f32⟩ : BufTy).Contents (Elt F) → (⟨S100000, .f32⟩ : BufTy).Contents (Elt F)),
    unary main_v11 main_v13 (broadcastInDim S100000x1 ![0] bcast_S100000_S100000x1_0 : (⟨S100000, .f32⟩ : BufTy).Contents (Elt F) → (⟨S100000x1, .f32⟩ : BufTy).Contents (Elt F)),
    unary main_v13 main_v14 (broadcastInDim S100000x128 ![0, 1] bcast_S100000x1_S100000x128_0_1 : (⟨S100000x1, .f32⟩ : BufTy).Contents (Elt F) → (⟨S100000x128, .f32⟩ : BufTy).Contents (Elt F)),
    binary main_arg0 main_v14 main_v15 (mulf : (⟨S100000x128, .f32⟩ : BufTy).Contents (Elt F) → (⟨S100000x128, .f32⟩ : BufTy).Contents (Elt F) → (⟨S100000x128, .f32⟩ : BufTy).Contents (Elt F)),
    binary main_v15 main_arg3 main_v16 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v17 (broadcastInDim S1600000 ![] bcast_S_S1600000 : (⟨S_, .i32⟩ : BufTy).Contents (Elt F) → (⟨S1600000, .i32⟩ : BufTy).Contents (Elt F)),
    binary main_arg1 main_v17 main_v18 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v19 (broadcastInDim S1600000 ![] bcast_S_S1600000 : (⟨S_, .i32⟩ : BufTy).Contents (Elt F) → (⟨S1600000, .i32⟩ : BufTy).Contents (Elt F)),
    binary main_arg1 main_v19 main_v20 (addi : (⟨S1600000, .i32⟩ : BufTy).Contents (Elt F) → (⟨S1600000, .i32⟩ : BufTy).Contents (Elt F) → (⟨S1600000, .i32⟩ : BufTy).Contents (Elt F)),
    ternary main_v18 main_v20 main_arg1 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v21 main_v22 (broadcastInDim S1600000x1 ![0] bcast_S1600000_S1600000x1_0 : (⟨S1600000, .i32⟩ : BufTy).Contents (Elt F) → (⟨S1600000x1, .i32⟩ : BufTy).Contents (Elt F)),
    binary main_v16 main_v22 main_v23 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_5 (constant S_ .f32 0x00000000#32),
    unary main_cst_5 main_v24 (broadcastInDim S100000x128 ![] bcast_S_S100000x128 : (⟨S_, .f32⟩ : BufTy).Contents (Elt F) → (⟨S100000x128, .f32⟩ : BufTy).Contents (Elt F)),
    unary main_arg2 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v23 main_v26 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v27 (broadcastInDim S100000x1 ![0] bcast_S100000_S100000x1_0 : (⟨S100000, .f32⟩ : BufTy).Contents (Elt F) → (⟨S100000x1, .f32⟩ : BufTy).Contents (Elt F)),
    unary main_v27 main_v28 (broadcastInDim S100000x128 ![0, 1] bcast_S100000x1_S100000x128_0_1 : (⟨S100000x1, .f32⟩ : BufTy).Contents (Elt F) → (⟨S100000x128, .f32⟩ : BufTy).Contents (Elt F)),
    binary main_v26 main_v28 main_v29 (mulf : (⟨S100000x128, .f32⟩ : BufTy).Contents (Elt F) → (⟨S100000x128, .f32⟩ : BufTy).Contents (Elt F) → (⟨S100000x128, .f32⟩ : BufTy).Contents (Elt F)),
    unary main_arg4 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)) ]

/-- The remaining 48 operations: the column mean, the variance function and its select, the normalisation, scale and
    shift, the rectifier and the residual addition. -/
abbrev opsB : List (HloOp τ sig (Elt F)) :=
  [
    nullary main_cst_6 (constant S_ .f32 0x00000000#32),
    binary main_v32 main_cst_6 main_v33 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_7 (constant S_ .f32 0x47C35000#32),
    unary main_cst_7 main_v34 (broadcastInDim S128 ![] bcast_S_S128 : (⟨S_, .f32⟩ : BufTy).Contents (Elt F) → (⟨S128, .f32⟩ : BufTy).Contents (Elt F)),
    binary main_v33 main_v34 main_v35 (Host.divf : (⟨S128, .f32⟩ : BufTy).Contents (Elt F) → (⟨S128, .f32⟩ : BufTy).Contents (Elt F) → (⟨S128, .f32⟩ : BufTy).Contents (Elt F)),
    nullary main_c_8 (constantI S_ 32 0#32),
    TRef.nullary main_call0.cst (constant S_ .f32 0x00000000#32),
    TRef.binary (.of main_v32) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v32) main_call0.v4 main_call0.v5 subf,
    TRef.binary main_call0.v5 main_call0.v5 main_call0.v6 mulf,
    TRef.unary (.of main_c_8) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v35 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v32 main_v38 main_v39 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3727C5AC#32),
    unary main_cst_9 main_v40 (broadcastInDim S128 ![] bcast_S_S128 : (⟨S_, .f32⟩ : BufTy).Contents (Elt F) → (⟨S128, .f32⟩ : BufTy).Contents (Elt F)),
    binary main_v36 main_v40 main_v41 (addf : (⟨S128, .f32⟩ : BufTy).Contents (Elt F) → (⟨S128, .f32⟩ : BufTy).Contents (Elt F) → (⟨S128, .f32⟩ : BufTy).Contents (Elt F)),
    unary main_v41 main_v42 (Host.rsqrt : (⟨S128, .f32⟩ : BufTy).Contents (Elt F) → (⟨S128, .f32⟩ : BufTy).Contents (Elt F)),
    unary main_v42 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v39 main_v44 main_v45 (mulf : (⟨S100000x128, .f32⟩ : BufTy).Contents (Elt F) → (⟨S100000x128, .f32⟩ : BufTy).Contents (Elt F) → (⟨S100000x128, .f32⟩ : BufTy).Contents (Elt F)),
    unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (mulf : (⟨S100000x128, .f32⟩ : BufTy).Contents (Elt F) → (⟨S100000x128, .f32⟩ : BufTy).Contents (Elt F) → (⟨S100000x128, .f32⟩ : BufTy).Contents (Elt F)),
    unary main_arg6 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v51) main_call1.v0 main_call1.v1 maximumf,
    binary main_v52 main_arg0 main_v53 (addf : (⟨S100000x128, .f32⟩ : BufTy).Contents (Elt F) → (⟨S100000x128, .f32⟩ : BufTy).Contents (Elt F) → (⟨S100000x128, .f32⟩ : BufTy).Contents (Elt F)) ]

/-- The whole line is the first part followed by the second. -/
theorem ops_split : (ops : List (HloOp τ sig (Elt F))) = opsA ++ opsB := rfl

/-- Folding a concatenation is folding the second list over the first list's result. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The contents after the whole line are the second part's fold over the first part's. -/
theorem after_ops (V : Valuation τ sig (Elt F)) : after ops V = after opsB (after opsA V) := by
  rw [ops_split, after_append]

end Cert.ReferenceIdeal.HandRun

end
-- ==== Proof.RefArgs.lean ====
/-
  No operation of the reference's line writes an argument's buffer, so each argument's contents after the line — and
  after its first part — are the contents before it.
-/
import proofs.«126196_j55027120996500_1_alg».proof.Proof.RefSplit

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## After the whole line -/

set_option maxRecDepth 8192 in
set_option maxHeartbeats 4000000 in
theorem ops_arg0 (V : Valuation τ sig (Elt F)) :
    after (ops : List (HloOp τ sig (Elt F))) V (main_arg0 : DevRef τ sig) = V (main_arg0 : DevRef τ sig) := by
  after_results_simp

set_option maxRecDepth 8192 in
set_option maxHeartbeats 4000000 in
theorem ops_arg1 (V : Valuation τ sig (Elt F)) :
    after (ops : List (HloOp τ sig (Elt F))) V (main_arg1 : DevRef τ sig) = V (main_arg1 : DevRef τ sig) := by
  after_results_simp

set_option maxRecDepth 8192 in
set_option maxHeartbeats 4000000 in
theorem ops_arg2 (V : Valuation τ sig (Elt F)) :
    after (ops : List (HloOp τ sig (Elt F))) V (main_arg2 : DevRef τ sig) = V (main_arg2 : DevRef τ sig) := by
  after_results_simp

set_option maxRecDepth 8192 in
set_option maxHeartbeats 4000000 in
theorem ops_arg3 (V : Valuation τ sig (Elt F)) :
    after (ops : List (HloOp τ sig (Elt F))) V (main_arg3 : DevRef τ sig) = V (main_arg3 : DevRef τ sig) := by
  after_results_simp

set_option maxRecDepth 8192 in
set_option maxHeartbeats 4000000 in
theorem ops_arg4 (V : Valuation τ sig (Elt F)) :
    after (ops : List (HloOp τ sig (Elt F))) V (main_arg4 : DevRef τ sig) = V (main_arg4 : DevRef τ sig) := by
  after_results_simp

set_option maxRecDepth 8192 in
set_option maxHeartbeats 4000000 in
theorem ops_arg5 (V : Valuation τ sig (Elt F)) :
    after (ops : List (HloOp τ sig (Elt F))) V (main_arg5 : DevRef τ sig) = V (main_arg5 : DevRef τ sig) := by
  after_results_simp

set_option maxRecDepth 8192 in
set_option maxHeartbeats 4000000 in
theorem ops_arg6 (V : Valuation τ sig (Elt F)) :
    after (ops : List (HloOp τ sig (Elt F))) V (main_arg6 : DevRef τ sig) = V (main_arg6 : DevRef τ sig) := by
  after_results_simp

/-! ## After the first part (the arguments the second part reads) -/

set_option maxRecDepth 8192 in
set_option maxHeartbeats 4000000 in
theorem opsA_arg0 (V : Valuation τ sig (Elt F)) :
    after (opsA : List (HloOp τ sig (Elt F))) V (main_arg0 : DevRef τ sig) = V (main_arg0 : DevRef τ sig) := by
  after_results_simp

set_option maxRecDepth 8192 in
set_option maxHeartbeats 4000000 in
theorem opsA_arg5 (V : Valuation τ sig (Elt F)) :
    after (opsA : List (HloOp τ sig (Elt F))) V (main_arg5 : DevRef τ sig) = V (main_arg5 : DevRef τ sig) := by
  after_results_simp

set_option maxRecDepth 8192 in
set_option maxHeartbeats 4000000 in
theorem opsA_arg6 (V : Valuation τ sig (Elt F)) :
    after (opsA : List (HloOp τ sig (Elt F))) V (main_arg6 : DevRef τ sig) = V (main_arg6 : DevRef τ sig) := by
  after_results_simp

end Cert.ReferenceIdeal.HandRun

end
-- ==== Proof.RefValue.lean ====
/-
  The reference program's value at the extended reals, read index by index.

  The run (RefRun) leaves every buffer at the fold of the 89 host operations over the launch contents. Here that fold
  is read at the result buffer: the degree chain and the gather/scatter chain are, as terms, the specification's own
  array-level chains, and every other operation is read at an index — the product as the sum over the contracted
  axis, each broadcast as the operand's entry, each column sum as the sum over the rows — which gives the layer's
  formula with the variance in its centred form.
-/
import proofs.«126196_j55027120996500_1_alg».proof.Proof.RefArgs
import proofs.«126196_j55027120996500_1_alg».proof.Proof.Algebra
import proofs.«126196_j55027120996500_1_alg».proof.Proof.Spec
import proofs.«126196_j55027120996500_1_alg».proof.Proof.LibMatmul
import Idealize.ShloMosaic.Lib.Pipeline.Value
import Idealize.ShloMosaic.Lib.IdealHost

noncomputable section

open scoped BigOperators

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.ValueIdx Cert.Bridge

/-! ## Broadcasts read at an index -/

/-- A vector over the rows, made a one-column matrix and then spread along the columns, reads at (i, j) the
    vector's entry i. -/
theorem rowBcast_apply {α : Type} (v : S100000.Idx → α) (i : Fin 100000) (j : Fin 128) :
    broadcastInDim S100000x128 ![0, 1] bcast_S100000x1_S100000x128_0_1
      (broadcastInDim S100000x1 ![0] bcast_S100000_S100000x1_0 v) (ix2 i j) = v (ix1 i) := by
  rw [broadcastInDim_apply _ _ _ (ix2 i j) (ix2 i (0 : Fin 1)) (fun a => by match a with | ⟨0, _⟩ => rfl | ⟨1, _⟩ => rfl)]
  rw [broadcastInDim_apply _ _ _ (ix2 i (0 : Fin 1)) (ix1 i) (fun a => by match a with | ⟨0, _⟩ => rfl)]

/-- A one-row matrix spread down the rows reads at (i, j) its entry (0, j). -/
theorem rowsOf_apply {α : Type} (w : S1x128.Idx → α) (i : Fin 100000) (j : Fin 128) :
    broadcastInDim S100000x128 ![0, 1] bcast_S1x128_S100000x128_0_1 w (ix2 i j) = w (ix2 (0 : Fin 1) j) :=
  broadcastInDim_apply _ _ _ (ix2 i j) (ix2 (0 : Fin 1) j) (fun a => by match a with | ⟨0, _⟩ => rfl | ⟨1, _⟩ => rfl)

/-- A vector over the columns made a one-row matrix reads at (0, j) the vector's entry j. -/
theorem asRow_apply {α : Type} (v : S128.Idx → α) (j : Fin 128) :
    broadcastInDim S1x128 ![1] bcast_S128_S1x128_1 v (ix2 (0 : Fin 1) j) = v (ix1 j) :=
  broadcastInDim_apply _ _ _ (ix2 (0 : Fin 1) j) (ix1 j) (fun a => by match a with | ⟨0, _⟩ => rfl)

/-- A vector over the columns, made a one-row matrix and then spread down the rows, reads at (i, j) the vector's
    entry j. -/
theorem colBcast_apply {α : Type} (v : S128.Idx → α) (i : Fin 100000) (j : Fin 128) :
    broadcastInDim S100000x128 ![0, 1] bcast_S1x128_S100000x128_0_1
      (broadcastInDim S1x128 ![1] bcast_S128_S1x128_1 v) (ix2 i j) = v (ix1 j) := by
  rw [rowsOf_apply, asRow_apply]

/-! ## The column sums -/

/-- Summing away the first axis of an [N, D] array leaves [D]: the witness that names the inserted index. -/
theorem red0 : S100000x128.Reduces [0] S128 := by decide

/-- The index of column j with row k inserted is (k, j). -/
theorem lift_red0 (j : Fin 128) (k : Fin 100000) : red0.lift (ix1 j) k = ix2 k j := by
  funext a
  refine Fin.ext ?_
  match a with
  | ⟨0, _⟩ => rfl
  | ⟨1, _⟩ => rfl

/-- The host's sum over the rows from the zero constant, read at column j: Σ_i A[i, j]. -/
theorem sumRows_apply (A : FVec Ideal S100000x128 .f32) (j : Fin 128) :
    Host.reduceAdd A (constant S_ .f32 0x00000000#32) reducesTo_S100000x128_S128_d0 h_S_ (ix1 j)
      = ∑ i : Fin 100000, A (ix2 i j) := by
  rw [hostReduceAdd_apply, Ideal.hostReduceAdd_single _ red0, constant_apply, Ideal.ofBits_zero_f32, zero_add]
  exact Finset.sum_congr rfl fun k _ => congrArg A (lift_red0 j k)

/-! ## One operation at an index -/

/-- The host's inverse square root at an index is the inverse square root of the entry. -/
theorem hostRsqrt_apply {s : Shape} (v : FVec Ideal s .f32) (i : s.Idx) : Host.rsqrt v i = Ideal.rsqrt (v i) := rfl

/-- A constant integer array reads its word everywhere. -/
theorem constantI_apply {s : Shape} {w : Nat} (b : BitVec w) (i : s.Idx) : constantI s w b i = b := rfl

/-- The integer word 0 converted to a float is the real number 0. -/
theorem sitofp_zero : FloatOps.sitofp (F := Ideal) .f32 (0#32 : BitVec 32) = (0 : EReal) := by
  show (((0#32 : BitVec 32).toInt : ℝ) : EReal) = 0
  simp

/-- The comparison "greater than" of extended reals answers the set bit when it holds. -/
theorem cmp_ogt_of_lt {x y : EReal} (h : y < x) : FloatOps.cmpf (F := Ideal) (φ := .f32) .ogt x y = 1#1 := by
  show BitVec.ofBool (decide (y < x)) = 1#1
  simp [h]

/-- The node count less the zero correction is positive: 100000 − 0 > 0. -/
theorem nodes_pos : (0 : EReal) < Ideal.ofBits .f32 0x47C35000#32 - 0 := by
  have h : Ideal.ofBits .f32 0x47C35000#32 = ((100000 : ℝ) : EReal) := cN_eq
  rw [h, sub_zero]
  exact_mod_cast (by norm_num : (0 : ℝ) < 100000)

/-! ## The first part: the layer's pre-normalisation output -/

/-- The product with the weights, as an array: entry (i, j) of (x scaled row-wise by ns) · W is
    Σ_k (x[i, k] · ns[i]) · W[k, j]. -/
theorem stage_h (x : FVec Ideal S100000x128 .f32) (ns : FVec Ideal S100000 .f32) (W : FVec Ideal S128x128 .f32) :
    Host.dotGeneral dot_S100000x128_S128x128_S100000x128_1_0_0_1_n_n none
      (mulf x (broadcastInDim S100000x128 ![0, 1] bcast_S100000x1_S100000x128_0_1
        (broadcastInDim S100000x1 ![0] bcast_S100000_S100000x1_0 ns))) W
      = arr2 (hMat x ns W) := by
  funext idx
  obtain ⟨i, j, rfl⟩ : ∃ (i : Fin 100000) (j : Fin 128), idx = ix2 i j := ⟨idx 0, idx 1, eq_ix2 idx⟩
  rw [arr2_apply]
  show FloatOps.dotGeneral (DotDims.plain 100000 128 128) none .single _ W (ix2 i j) = _
  rw [LibMatmul.dotGeneral_apply]
  unfold hMat
  exact Finset.sum_congr rfl fun k _ => by rw [mulf_apply, rowBcast_apply]

/-- The scaling by the in-degree factor and the bias, as an array: entry (i, j) is agg[i, j] · nd[i] + b[j]. -/
theorem stage_H (agg : FVec Ideal S100000x128 .f32) (nd : FVec Ideal S100000 .f32) (b : FVec Ideal S128 .f32) :
    addf (mulf agg (broadcastInDim S100000x128 ![0, 1] bcast_S100000x1_S100000x128_0_1
        (broadcastInDim S100000x1 ![0] bcast_S100000_S100000x1_0 nd)))
      (broadcastInDim S100000x128 ![0, 1] bcast_S1x128_S100000x128_0_1 (broadcastInDim S1x128 ![1] bcast_S128_S1x128_1 b))
      = arr2 (hNorm agg nd b) := by
  funext idx
  obtain ⟨i, j, rfl⟩ : ∃ (i : Fin 100000) (j : Fin 128), idx = ix2 i j := ⟨idx 0, idx 1, eq_ix2 idx⟩
  rw [arr2_apply, addf_apply, mulf_apply, rowBcast_apply, colBcast_apply]
  rfl

set_option maxRecDepth 8192 in
set_option maxHeartbeats 4000000 in
/-- After the first 41 operations the buffer of %32 holds the layer's pre-normalisation output H of the arguments:
    the two degree chains and the gather/scatter chain are the specification's own terms, the product and the
    scaling are read by the two lemmas above. -/
theorem head_eq (V : Valuation τ sig (Elt Ideal)) :
    after (opsA (F := Ideal)) V (main_v32 : DevRef τ sig)
      = arr2 (layerH scatter_S100000_S1600000x1_S1600000_n_0_0_1 gather_S100000x128_S1600000x1_S1600000x128_1_0_n_n_0_1_1128
          scatter_S100000x128_S1600000x1_S1600000x128_1_0_0_1
          Facts₀.bcast_S_S100000 Facts₀.bcast_S_S1600000 Facts₀.bcast_S1600000_S1600000x1_0 Facts₀.bcast_S_S100000x128
          (V (main_arg0 : DevRef τ sig)) (V (main_arg1 : DevRef τ sig)) (V (main_arg2 : DevRef τ sig))
          (V (main_arg3 : DevRef τ sig)) (V (main_arg4 : DevRef τ sig))) := by
  after_results_simp
  rw [stage_h, stage_H]
  rfl

/-! ## The second part: the batch statistics and the output, read at an index

Throughout, `Hf i j` is the layer's pre-normalisation output at row i and column j, and the array the operations read
is `arr2 Hf`. -/

/-- The column mean as @main spells it (the column sum divided by the node count broadcast over the columns), at
    column j: (Σ_i H[i, j]) / N. -/
theorem mean_apply (Hf : Fin 100000 → Fin 128 → EReal) (j : Fin 128) :
    (Host.divf (Host.reduceAdd (arr2 Hf : FVec Ideal S100000x128 .f32) (constant (F := Ideal) S_ .f32 0x00000000#32) reducesTo_S100000x128_S128_d0 h_S_) (broadcastInDim S128 ![] bcast_S_S128 (constant (F := Ideal) S_ .f32 0x47C35000#32))) (ix1 j) = mean Hf j := by
  rw [hostDivf_apply, sumRows_apply, broadcastInDim_scalar_apply, constant_apply]
  rfl

/-- The column mean as the variance function spells it (the column sums as a one-row matrix, divided by the node
    count as a one-row matrix), at (0, j): the same (Σ_i H[i, j]) / N. -/
theorem meanRow_apply (Hf : Fin 100000 → Fin 128 → EReal) (j : Fin 128) :
    (Host.divf (broadcastInDim S1x128 ![1] bcast_S128_S1x128_1 (Host.reduceAdd (arr2 Hf : FVec Ideal S100000x128 .f32) (constant (F := Ideal) S_ .f32 0x00000000#32) reducesTo_S100000x128_S128_d0 h_S_)) (broadcastInDim S1x128 ![] bcast_S_S1x128 (constant (F := Ideal) S_ .f32 0x47C35000#32))) (ix2 (0 : Fin 1) j) = mean Hf j := by
  rw [hostDivf_apply, asRow_apply, sumRows_apply, broadcastInDim_scalar_apply, constant_apply]
  rfl

/-- The centred array at (i, j): H[i, j] − μ[j]. -/
theorem centred_apply (Hf : Fin 100000 → Fin 128 → EReal) (i : Fin 100000) (j : Fin 128) :
    (subf (arr2 Hf : FVec Ideal S100000x128 .f32) (broadcastInDim S100000x128 ![0, 1] bcast_S1x128_S100000x128_0_1 (Host.divf (broadcastInDim S1x128 ![1] bcast_S128_S1x128_1 (Host.reduceAdd (arr2 Hf : FVec Ideal S100000x128 .f32) (constant (F := Ideal) S_ .f32 0x00000000#32) reducesTo_S100000x128_S128_d0 h_S_)) (broadcastInDim S1x128 ![] bcast_S_S1x128 (constant (F := Ideal) S_ .f32 0x47C35000#32))))) (ix2 i j) = Hf i j - mean Hf j := by
  rw [subf_apply, rowsOf_apply, meanRow_apply, arr2_apply]

/-- The column sums of the centred squares, at column j: Σ_i (H[i, j] − μ[j])². -/
theorem sqsum_apply (Hf : Fin 100000 → Fin 128 → EReal) (j : Fin 128) :
    (Host.reduceAdd (mulf (subf (arr2 Hf : FVec Ideal S100000x128 .f32) (broadcastInDim S100000x128 ![0, 1] bcast_S1x128_S100000x128_0_1 (Host.divf (broadcastInDim S1x128 ![1] bcast_S128_S1x128_1 (Host.reduceAdd (arr2 Hf : FVec Ideal S100000x128 .f32) (constant (F := Ideal) S_ .f32 0x00000000#32) reducesTo_S100000x128_S128_d0 h_S_)) (broadcastInDim S1x128 ![] bcast_S_S1x128 (constant (F := Ideal) S_ .f32 0x47C35000#32))))) (subf (arr2 Hf : FVec Ideal S100000x128 .f32) (broadcastInDim S100000x128 ![0, 1] bcast_S1x128_S100000x128_0_1 (Host.divf (broadcastInDim S1x128 ![1] bcast_S128_S1x128_1 (Host.reduceAdd (arr2 Hf : FVec Ideal S100000x128 .f32) (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_) (ix1 j)
      = ∑ i : Fin 100000, (Hf i j - mean Hf j) * (Hf i j - mean Hf j) := by
  rw [sumRows_apply]
  exact Finset.sum_congr rfl fun i _ => by rw [mulf_apply, centred_apply]

/-- The scalar the variance function divides by, N − 0 with the 0 an integer converted to a float, is N − 0. -/
theorem nodes_apply : (subf (constant (F := Ideal) S_ .f32 0x47C35000#32) (sitofp .f32 (constantI S_ 32 0#32))) ix0 = Ideal.ofBits .f32 0x47C35000#32 - 0 := by
  rw [subf_apply, constant_apply, sitofp_apply, constantI_apply, sitofp_zero]

/-- The variance function's result at column j: the guard N − 0 > 0 holds, so the select takes the quotient
    (Σ_i (H[i, j] − μ[j])²) / (N − 0), the centred form of the variance. -/
theorem var_apply (Hf : Fin 100000 → Fin 128 → EReal) (j : Fin 128) :
    (select (broadcastInDim S128 ![] bcast_S_S128 (cmpf .ogt (subf (constant (F := Ideal) S_ .f32 0x47C35000#32) (sitofp .f32 (constantI S_ 32 0#32))) (constant (F := Ideal) S_ .f32 0x00000000#32))) (Host.divf (Host.reduceAdd (mulf (subf (arr2 Hf : FVec Ideal S100000x128 .f32) (broadcastInDim S100000x128 ![0, 1] bcast_S1x128_S100000x128_0_1 (Host.divf (broadcastInDim S1x128 ![1] bcast_S128_S1x128_1 (Host.reduceAdd (arr2 Hf : FVec Ideal S100000x128 .f32) (constant (F := Ideal) S_ .f32 0x00000000#32) reducesTo_S100000x128_S128_d0 h_S_)) (broadcastInDim S1x128 ![] bcast_S_S1x128 (constant (F := Ideal) S_ .f32 0x47C35000#32))))) (subf (arr2 Hf : FVec Ideal S100000x128 .f32) (broadcastInDim S100000x128 ![0, 1] bcast_S1x128_S100000x128_0_1 (Host.divf (broadcastInDim S1x128 ![1] bcast_S128_S1x128_1 (Host.reduceAdd (arr2 Hf : FVec Ideal S100000x128 .f32) (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_) (broadcastInDim S128 ![] bcast_S_S128 (subf (constant (F := Ideal) S_ .f32 0x47C35000#32) (sitofp .f32 (constantI S_ 32 0#32))))) (broadcastInDim S128 ![] bcast_S_S128 (constant (F := Ideal) S_ .f32 0x7FC00000#32))) (ix1 j) = varCentred Hf j := by
  rw [select_apply, broadcastInDim_scalar_apply, cmpf_apply, nodes_apply, constant_apply, Ideal.ofBits_zero_f32,
    cmp_ogt_of_lt nodes_pos, select_one, hostDivf_apply, sqsum_apply, broadcastInDim_scalar_apply, nodes_apply]
  rfl

set_option maxRecDepth 8192 in
set_option maxHeartbeats 4000000 in
/-- The second part over ANY contents whose %32 buffer holds H: the result buffer holds the layer's formula with the
    centred variance — max(((H − μ) · rsqrt(v + ε)) · γ + β, 0) + x at every (i, j). -/
theorem tail_eq (W : Valuation τ sig (Elt Ideal)) (Hf : Fin 100000 → Fin 128 → EReal)
    (h32 : W (main_v32 : DevRef τ sig) = arr2 Hf) :
    after (opsB (F := Ideal)) W (main_v53 : DevRef τ sig)
      = arr2 (outAt Hf (varCentred Hf) (W (main_arg0 : DevRef τ sig)) (W (main_arg5 : DevRef τ sig)) (W (main_arg6 : DevRef τ sig))) := by
  after_results_simp
  simp only [TRef.ofBuf, TRef.toBuf, cast_eq]
  rw [h32]
  funext idx
  obtain ⟨i, j, rfl⟩ : ∃ (i : Fin 100000) (j : Fin 128), idx = ix2 i j := ⟨idx 0, idx 1, eq_ix2 idx⟩
  simp only [addf_apply, maximumf_apply, mulf_apply, subf_apply, arr2_apply, id]
  rw [colBcast_apply, colBcast_apply, colBcast_apply, colBcast_apply, mean_apply, hostRsqrt_apply, addf_apply, var_apply,
    broadcastInDim_scalar_apply, broadcastInDim_scalar_apply, constant_apply, constant_apply, Ideal.ofBits_zero_f32]
  rfl

/-! ## The whole line, and the run -/

set_option maxHeartbeats 1000000 in
/-- After the whole line the result buffer holds the layer, with the variance in its centred form, of the seven
    arguments: the second part's reading over the first part's contents, whose %32 buffer holds H and whose argument
    buffers are untouched. -/
theorem out_eq (V : Valuation τ sig (Elt Ideal)) :
    after (ops (F := Ideal)) V (main_v53 : DevRef τ sig)
      = layerCentred scatter_S100000_S1600000x1_S1600000_n_0_0_1 gather_S100000x128_S1600000x1_S1600000x128_1_0_n_n_0_1_1128
          scatter_S100000x128_S1600000x1_S1600000x128_1_0_0_1
          Facts₀.bcast_S_S100000 Facts₀.bcast_S_S1600000 Facts₀.bcast_S1600000_S1600000x1_0 Facts₀.bcast_S_S100000x128
          (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [after_ops, tail_eq (after opsA V) _ (head_eq V), opsA_arg0, opsA_arg5, opsA_arg6]
  rfl

end Cert.ReferenceIdeal.HandRun

namespace Cert.ReferenceIdeal.HandRun

open Cert.ReferenceIdeal Cert.ReferenceIdeal.Gen Idealize.ShloMosaic Idealize.ShloMosaic.TcCoe Idealize.SL.Sem Idealize.ShloMosaic.StableHlo

/-- On every device, at the extended reals, from any memory with zero counters: every weakly fair execution of @main
    terminates with the result buffer at the layer (centred variance) of the arguments' launch contents, and the seven
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53)
        = Cert.Bridge.layerCentred scatter_S100000_S1600000x1_S1600000_n_0_0_1 gather_S100000x128_S1600000x1_S1600000x128_1_0_n_n_0_1_1128
          scatter_S100000x128_S1600000x1_S1600000x128_1_0_0_1
          Facts₀.bcast_S_S100000 Facts₀.bcast_S_S1600000 Facts₀.bcast_S1600000_S1600000x1_0 Facts₀.bcast_S_S100000x128
            (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v53).trans (out_eq _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _)⟩)
    (run_main m ρ)

end Cert.ReferenceIdeal.HandRun

end
-- ==== Proof.lean ====
/-
  The certificate's claim, assembled.

  The tiled program ends with the graph-convolution layer whose batch variance is computed from the two moments, the
  reference with the same layer whose variance is computed from the centred squares; both are stated once, index by
  index, in Proof/Spec.lean, over the dimension records and shape facts of the degree / gather / scatter chain as
  parameters. The two programs declare equal records, the precondition makes every float input finite, the chain then
  produces finite numbers, and on finite columns the two forms of the variance are one real identity. The three frame
  claims are the generated frames and the reference's run with its statement about the result dropped; the ideal pass
  rewrote nothing, so there is nothing to preserve.
-/
import proofs.«126196_j55027120996500_1_alg».proof.Defs
import proofs.«126196_j55027120996500_1_alg».proof.Proof.Gen.Kernel
import proofs.«126196_j55027120996500_1_alg».proof.Proof.Gen.Kernel.Skeleton
import proofs.«126196_j55027120996500_1_alg».proof.Proof.Gen.Kernel.Launch
import proofs.«126196_j55027120996500_1_alg».proof.Proof.Gen.Kernel.Points
import proofs.«126196_j55027120996500_1_alg».proof.Proof.Gen.Kernel.Frame
import proofs.«126196_j55027120996500_1_alg».proof.Proof.Gen.KernelIdeal
import proofs.«126196_j55027120996500_1_alg».proof.Proof.Gen.KernelIdeal.Skeleton
import proofs.«126196_j55027120996500_1_alg».proof.Proof.Gen.KernelIdeal.Launch
import proofs.«126196_j55027120996500_1_alg».proof.Proof.Gen.KernelIdeal.Points
import proofs.«126196_j55027120996500_1_alg».proof.Proof.Gen.KernelIdeal.Frame
import proofs.«126196_j55027120996500_1_alg».proof.Proof.Gen.ReferenceIdeal
import proofs.«126196_j55027120996500_1_alg».proof.Proof.Gen.Pre_finite_inputs
import proofs.«126196_j55027120996500_1_alg».proof.Proof.Spec
import proofs.«126196_j55027120996500_1_alg».proof.Proof.Algebra
import proofs.«126196_j55027120996500_1_alg».proof.Proof.ChainFinite
import proofs.«126196_j55027120996500_1_alg».proof.Proof.PreFinite
import proofs.«126196_j55027120996500_1_alg».proof.Proof.KValue
import proofs.«126196_j55027120996500_1_alg».proof.Proof.RefValue
import Idealize.ShloMosaic.Adequacy
import Idealize.ShloMosaic.Init

noncomputable section

/-! ## The two programs' dimension records are the same records

The reference and the tiled program each declare their own copies of the three dimension records of the degree /
gather / scatter chain, over shape names of their own that abbreviate the same literals; each pair has the same data
fields, and the remaining field is a proof. -/

namespace Cert.Bridge

open Idealize.ShloMosaic Idealize.ShloMosaic.ValueIdx

theorem rec_d1_eq : (Cert.ReferenceIdeal.scatter_S100000_S1600000x1_S1600000_n_0_0_1 : ScatterDims SN SE1 SE)
    = Cert.KernelIdeal.scatter_S100000_S1600000x1_S1600000_n_0_0_1 := rfl

theorem rec_dg_eq : (Cert.ReferenceIdeal.gather_S100000x128_S1600000x1_S1600000x128_1_0_n_n_0_1_1128 : GatherDims SND SE1 SED)
    = Cert.KernelIdeal.gather_S100000x128_S1600000x1_S1600000x128_1_0_n_n_0_1_1128 := rfl

theorem rec_d2_eq : (Cert.ReferenceIdeal.scatter_S100000x128_S1600000x1_S1600000x128_1_0_0_1 : ScatterDims SND SE1 SED)
    = Cert.KernelIdeal.scatter_S100000x128_S1600000x1_S1600000x128_1_0_0_1 := rfl

/-- From the precondition, the centred form of the layer on one set of arguments is the moments form on an equal set
    of arguments, whatever the dimension records and shape facts (the same on both sides): the precondition makes x, W
    and b finite, the chain's two arrays are then finite for any records, and on finite columns the two forms of
    the variance agree. -/
theorem layer_bridge (d1 : ScatterDims SN SE1 SE) (dg : GatherDims SND SE1 SED) (d2 : ScatterDims SND SE1 SED)
    (pN : PN) (pE : PE) (pE1 : PE1) (pND : PND) [Cert.Pre_finite_inputs.Facts]
    (x x' : FVec Ideal SND .f32) (src src' dst dst' : IVec SE 32) (W W' : FVec Ideal SDD .f32)
    (b b' γ γ' β β' : FVec Ideal SD .f32)
    (e0 : x' = x) (e1 : src' = src) (e2 : dst' = dst) (e3 : W' = W) (e4 : b' = b) (e5 : γ' = γ) (e6 : β' = β)
    (hpre : Cert.Pre_finite_inputs.fn (F := Ideal) x src dst W b γ β = (fun _ => 1#1)) :
    layerCentred d1 dg d2 pN pE pE1 pND x' src' dst' W' b' γ' β' = layerMoments d1 dg d2 pN pE pE1 pND x src dst W b γ β := by
  subst e0 e1 e2 e3 e4 e5 e6
  obtain ⟨hx, hW, hb, -, -⟩ := real_of_pre x' src' dst' W' b' γ' β' hpre
  exact layerCentred_eq_layerMoments d1 dg d2 pN pE pE1 pND x' src' dst' W' b' γ' β' hx hW hb
    (fun idx r => normArr_real d1 pN pE pE1 idx r)
    (fun h hh i => aggArr_real dg d2 pE pE1 pND h src' dst' hh i)

end Cert.Bridge

/-! ## The assembly -/

namespace Cert.Proof

open Idealize.ShloMosaic Idealize.SL.Sem

/-- The tiled program at the bit-exact instance runs and leaves its arguments: the generated frame. -/
theorem t_frame_k : Cert.frame_Kernel := fun m ρ _ => Cert.Kernel.Gen.frame m ρ
/-- The same at the ideal instance. -/
theorem t_frame_ki : Cert.frame_KernelIdeal := fun m ρ _ => Cert.KernelIdeal.Gen.frame m ρ
/-- The reference runs and leaves its arguments: its run, with the statement about the result dropped. -/
theorem t_frame_ri : Cert.frame_ReferenceIdeal := fun m ρ _ =>
  (θ_run Cert.ReferenceIdeal.defs _ _).mono (fun _ h c => (h c).2) (Cert.ReferenceIdeal.HandRun.run m ρ)
/-- The ideal pass rewrote no operation: nothing to preserve. -/
theorem t_preserves : Cert.preserves_Kernel_KernelIdeal := trivial

/-- From agreeing, finite arguments both programs run and end with the same result array: the tiled program's is the
    layer with the variance from the two moments, the reference's is the layer with the variance from the centred
    squares on the same records and arguments, and the two agree on finite inputs. -/
theorem t_algebraic : Cert.algebraic_KernelIdeal_ReferenceIdeal := by
  intro m ρ m' ρ' hpre hagree
  refine ⟨_, Cert.KernelIdeal.KV.run m ρ, ?_⟩
  refine (θ_run Cert.ReferenceIdeal.defs _ _).mono (fun _ h c => ⟨(h c).1.trans ?_, (h c).2⟩)
    (Cert.ReferenceIdeal.HandRun.run m' ρ')
  obtain ⟨e0, e1, e2, e3, e4, e5, e6⟩ := hagree c
  rw [Cert.Bridge.rec_d1_eq, Cert.Bridge.rec_dg_eq, Cert.Bridge.rec_d2_eq]
  exact Cert.Bridge.layer_bridge _ _ _ _ _ _ _ _ _ _ _ _ _ _ _ _ _ _ _ _ _ e0 e1 e2 e3 e4 e5 e6 (hpre c)

theorem claim : Cert.Claim := ⟨Cert.Kernel.Gen.facts, Cert.KernelIdeal.Gen.facts, Cert.ReferenceIdeal.Gen.facts, Cert.Pre_finite_inputs.Gen.facts,
  t_frame_k, t_frame_ki, t_frame_ri, t_preserves, t_algebraic⟩

end Cert.Proof

end
